-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x16 : Shape := ⟨2, ![200000, 16]⟩
abbrev S16x16 : Shape := ⟨2, ![16, 16]⟩
abbrev S16 : Shape := ⟨1, ![16]⟩
abbrev S16x4 : Shape := ⟨2, ![16, 4]⟩
abbrev S4 : Shape := ⟨1, ![4]⟩
abbrev S2x3200000 : Shape := ⟨2, ![2, 3200000]⟩
abbrev S200000 : Shape := ⟨1, ![200000]⟩
abbrev S_ : Shape := ⟨0, ![]⟩

class Facts : Prop where
  bcast_S_S200000x16 : S_.BroadcastsInDim S200000x16 (![] : Fin 0 → Fin S200000x16.rank)
  reducesTo_S200000x16_S_d0_1 : S200000x16.ReducesTo [0, 1] S_
  h_S_ : 0 < S_.numel
  bcast_S_S16x16 : S_.BroadcastsInDim S16x16 (![] : Fin 0 → Fin S16x16.rank)
  reducesTo_S16x16_S_d0_1 : S16x16.ReducesTo [0, 1] S_
  bcast_S_S16 : S_.BroadcastsInDim S16 (![] : Fin 0 → Fin S16.rank)
  reducesTo_S16_S_d0 : S16.ReducesTo [0] S_
  bcast_S_S16x4 : S_.BroadcastsInDim S16x4 (![] : Fin 0 → Fin S16x4.rank)
  reducesTo_S16x4_S_d0_1 : S16x4.ReducesTo [0, 1] S_
  bcast_S_S4 : S_.BroadcastsInDim S4 (![] : Fin 0 → Fin S4.rank)
  reducesTo_S4_S_d0 : S4.ReducesTo [0] S_

variable [Facts]

def fn_part2 {F : FTy → Type} [FloatOps F] (main_arg7 : FVec F S16x4 .f32) (main_arg8 : FVec F S4 .f32) (main_v33 : IVec S_ 1) : IVec S_ 1 :=
  let main_v34 : FVec F S16x4 .f32 := Host.absf main_arg7
  let main_cst_12 : FVec F S_ .f32 := constant S_ .f32 0x7F800000#32
  let main_v35 : FVec F S16x4 .f32 := broadcastInDim S16x4 ![] bcast_S_S16x4 main_cst_12
  let main_v36 : IVec S16x4 1 := cmpf .olt main_v34 main_v35
  let main_c_13 : IVec S_ 1 := constantI S_ 1 1#1
  let main_v37 : IVec S_ 1 := (fun x v => Host.reduce IntOp.andi x v reducesTo_S16x4_S_d0_1 h_S_) main_v36 main_c_13
  let main_v38 : IVec S_ 1 := andi main_v33 main_v37
  let main_v39 : FVec F S4 .f32 := Host.absf main_arg8
  let main_cst_14 : FVec F S_ .f32 := constant S_ .f32 0x7F800000#32
  let main_v40 : FVec F S4 .f32 := broadcastInDim S4 ![] bcast_S_S4 main_cst_14
  let main_v41 : IVec S4 1 := cmpf .olt main_v39 main_v40
  let main_c_15 : IVec S_ 1 := constantI S_ 1 1#1
  let main_v42 : IVec S_ 1 := (fun x v => Host.reduce IntOp.andi x v reducesTo_S4_S_d0 h_S_) main_v41 main_c_15
  let main_v43 : IVec S_ 1 := andi main_v38 main_v42
  main_v43

def fn_part1 {F : FTy → Type} [FloatOps F] (main_arg4 : FVec F S16 .f32) (main_arg5 : FVec F S16x16 .f32) (main_arg6 : FVec F S16 .f32) (main_arg7 : FVec F S16x4 .f32) (main_arg8 : FVec F S4 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x16 .f32 := Host.absf main_arg5
  let main_cst_8 : FVec F S_ .f32 := constant S_ .f32 0x7F800000#32
  let main_v25 : FVec F S16x16 .f32 := broadcastInDim S16x16 ![] bcast_S_S16x16 main_cst_8
  let main_v26 : IVec S16x16 1 := cmpf .olt main_v24 main_v25
  let main_c_9 : IVec S_ 1 := constantI S_ 1 1#1
  let main_v27 : IVec S_ 1 := (fun x v => Host.reduce IntOp.andi x v reducesTo_S16x16_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg7 main_arg8 main_v33

def fn {F : FTy → Type} [FloatOps F] (main_arg0 : FVec F S200000x16 .f32) (main_arg1 : FVec F S16x16 .f32) (main_arg2 : FVec F S16 .f32) (main_arg3 : FVec F S16x16 .f32) (main_arg4 : FVec F S16 .f32) (main_arg5 : FVec F S16x16 .f32) (main_arg6 : FVec F S16 .f32) (main_arg7 : FVec F S16x4 .f32) (main_arg8 : FVec F S4 .f32) (main_arg9 : IVec S2x3200000 32) (main_arg10 : IVec S200000 32) : IVec S_ 1 :=
  let main_v0 : FVec F S200000x16 .f32 := Host.absf main_arg0
  let main_cst : FVec F S_ .f32 := constant S_ .f32 0x7F800000#32
  let main_v1 : FVec F S200000x16 .f32 := broadcastInDim S200000x16 ![] bcast_S_S200000x16 main_cst
  let main_v2 : IVec S200000x16 1 := cmpf .olt main_v0 main_v1
  let main_c : IVec S_ 1 := constantI S_ 1 1#1
  let main_v3 : IVec S_ 1 := (fun x v => Host.reduce IntOp.andi x v reducesTo_S200000x16_S_d0_1 h_S_) main_v2 main_c
  let main_v4 : FVec F S16x16 .f32 := Host.absf main_arg1
  let main_cst_0 : FVec F S_ .f32 := constant S_ .f32 0x7F800000#32
  let main_v5 : FVec F S16x16 .f32 := broadcastInDim S16x16 ![] bcast_S_S16x16 main_cst_0
  let main_v6 : IVec S16x16 1 := cmpf .olt main_v4 main_v5
  let main_c_1 : IVec S_ 1 := constantI S_ 1 1#1
  let main_v7 : IVec S_ 1 := (fun x v => Host.reduce IntOp.andi x v reducesTo_S16x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg3
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg4 main_arg5 main_arg6 main_arg7 main_arg8 main_v13 main_v16
-- ==== Kernel.lean ====
abbrev S200000x16 : Shape := ⟨2, ![200000, 16]⟩
abbrev S16x16 : Shape := ⟨2, ![16, 16]⟩
abbrev S16 : Shape := ⟨1, ![16]⟩
abbrev S16x4 : Shape := ⟨2, ![16, 4]⟩
abbrev S4 : Shape := ⟨1, ![4]⟩
abbrev S2x3200000 : Shape := ⟨2, ![2, 3200000]⟩
abbrev S200000 : Shape := ⟨1, ![200000]⟩
abbrev S1x3200000 : Shape := ⟨2, ![1, 3200000]⟩
abbrev S3200000 : Shape := ⟨1, ![3200000]⟩
abbrev S3400000 : Shape := ⟨1, ![3400000]⟩
abbrev S_ : Shape := ⟨0, ![]⟩
abbrev S3400000x1 : Shape := ⟨2, ![3400000, 1]⟩
abbrev S8000x16 : Shape := ⟨2, ![8000, 16]⟩
abbrev S3400000x16 : Shape := ⟨2, ![3400000, 16]⟩
abbrev S1x16 : Shape := ⟨2, ![1, 16]⟩
abbrev S256x16 : Shape := ⟨2, ![256, 16]⟩
abbrev S200000x1 : Shape := ⟨2, ![200000, 1]⟩
abbrev S256 : Shape := ⟨1, ![256]⟩
abbrev S256x1 : Shape := ⟨2, ![256, 1]⟩
abbrev S1x4 : Shape := ⟨2, ![1, 4]⟩
abbrev S256x4 : Shape := ⟨2, ![256, 4]⟩

abbrev nBuf : Space → Nat
  | .hbm => 125
  | .vmem => 21
  | .smem => 0
  | _ => 0

abbrev bufTy : (tb : Table) → Fin (tcTables nBuf tb) → BufTy
  | .hbm, ⟨0, _⟩ => ⟨S200000x16, .f32⟩
  | .hbm, ⟨1, _⟩ => ⟨S16x16, .f32⟩
  | .hbm, ⟨2, _⟩ => ⟨S16, .f32⟩
  | .hbm, ⟨3, _⟩ => ⟨S16x16, .f32⟩
  | .hbm, ⟨4, _⟩ => ⟨S16, .f32⟩
  | .hbm, ⟨5, _⟩ => ⟨S16x16, .f32⟩
  | .hbm, ⟨6, _⟩ => ⟨S16, .f32⟩
  | .hbm, ⟨7, _⟩ => ⟨S16x4, .f32⟩
  | .hbm, ⟨8, _⟩ => ⟨S4, .f32⟩
  | .hbm, ⟨9, _⟩ => ⟨S2x3200000, .i32⟩
  | .hbm, ⟨10, _⟩ => ⟨S200000, .i32⟩
  | .hbm, ⟨11, _⟩ => ⟨S200000, .i32⟩
  | .hbm, ⟨12, _⟩ => ⟨S1x3200000, .i32⟩
  | .hbm, ⟨13, _⟩ => ⟨S3200000, .i32⟩
  | .hbm, ⟨14, _⟩ => ⟨S3400000, .i32⟩
  | .hbm, ⟨15, _⟩ => ⟨S1x3200000, .i32⟩
  | .hbm, ⟨16, _⟩ => ⟨S3200000, .i32⟩
  | .hbm, ⟨17, _⟩ => ⟨S3400000, .i32⟩
  | .hbm, ⟨18, _⟩ => ⟨S_, .f32⟩
  | .hbm, ⟨19, _⟩ => ⟨S3400000, .f32⟩
  | .hbm, ⟨20, _⟩ => ⟨S_, .f32⟩
  | .hbm, ⟨21, _⟩ => ⟨S200000, .f32⟩
  | .hbm, ⟨22, _⟩ => ⟨S3400000x1, .i32⟩
  | .hbm, ⟨23, _⟩ => ⟨S200000, .f32⟩
  | .hbm, ⟨24, _⟩ => ⟨S_, .f32⟩
  | .hbm, ⟨25, _⟩ => ⟨S200000, .f32⟩
  | .hbm, ⟨26, _⟩ => ⟨S200000, .i1⟩
  | .hbm, ⟨27, _⟩ => ⟨S200000, .f32⟩
  | .hbm, ⟨28, _⟩ => ⟨S_, .f32⟩
  | .hbm, ⟨29, _⟩ => ⟨S_, .f32⟩
  | .hbm, ⟨30, _⟩ => ⟨S200000, .f32⟩
  | .hbm, ⟨31, _⟩ => ⟨S200000, .f32⟩
  | .hbm, ⟨32, _⟩ => ⟨S_, .i32⟩
  | .hbm, ⟨33, _⟩ => ⟨S3400000, .i32⟩
  | .hbm, ⟨34, _⟩ => ⟨S3400000, .i1⟩
  | .hbm, ⟨35, _⟩ => ⟨S_, .i32⟩
  | .hbm, ⟨36, _⟩ => ⟨S3400000, .i32⟩
  | .hbm, ⟨37, _⟩ => ⟨S3400000, .i32⟩
  | .hbm, ⟨38, _⟩ => ⟨S3400000, .i32⟩
  | .hbm, ⟨39, _⟩ => ⟨S3400000x1, .i32⟩
  | .hbm, ⟨40, _⟩ => ⟨S3400000, .f32⟩
  | .hbm, ⟨41, _⟩ => ⟨S_, .i32⟩
  | .hbm, ⟨42, _⟩ => ⟨S3400000, .i32⟩
  | .hbm, ⟨43, _⟩ => ⟨S3400000, .i1⟩
  | .hbm, ⟨44, _⟩ => ⟨S_, .i32⟩
  | .hbm, ⟨45, _⟩ => ⟨S3400000, .i32⟩
  | .hbm, ⟨46, _⟩ => ⟨S3400000, .i32⟩
  | .hbm, ⟨47, _⟩ => ⟨S3400000, .i32⟩
  | .hbm, ⟨48, _⟩ => ⟨S3400000x1, .i32⟩
  | .hbm, ⟨49, _⟩ => ⟨S3400000, .f32⟩
  | .hbm, ⟨50, _⟩ => ⟨S3400000, .f32⟩
  | .hbm, ⟨51, _⟩ => ⟨S200000x16, .f32⟩
  | .hbm, ⟨52, _⟩ => ⟨S_, .i32⟩
  | .hbm, ⟨53, _⟩ => ⟨S3400000, .i32⟩
  | .hbm, ⟨54, _⟩ => ⟨S3400000, .i1⟩
  | .hbm, ⟨55, _⟩ => ⟨S_, .i32⟩
  | .hbm, ⟨56, _⟩ => ⟨S3400000, .i32⟩
  | .hbm, ⟨57, _⟩ => ⟨S3400000, .i32⟩
  | .hbm, ⟨58, _⟩ => ⟨S3400000, .i32⟩
  | .hbm, ⟨59, _⟩ => ⟨S3400000x1, .i32⟩
  | .hbm, ⟨60, _⟩ => ⟨S3400000x16, .f32⟩
  | .hbm, ⟨61, _⟩ => ⟨S3400000x1, .f32⟩
  | .hbm, ⟨62, _⟩ => ⟨S3400000x16, .f32⟩
  | .hbm, ⟨63, _⟩ => ⟨S3400000x16, .f32⟩
  | .hbm, ⟨64, _⟩ => ⟨S_, .f32⟩
  | .hbm, ⟨65, _⟩ => ⟨S200000x16, .f32⟩
  | .hbm, ⟨66, _⟩ => ⟨S3400000x1, .i32⟩
  | .hbm, ⟨67, _⟩ => ⟨S200000x16, .f32⟩
  | .hbm, ⟨68, _⟩ => ⟨S1x16, .f32⟩
  | .hbm, ⟨69, _⟩ => ⟨S200000x16, .f32⟩
  | .hbm, ⟨70, _⟩ => ⟨S_, .i32⟩
  | .hbm, ⟨71, _⟩ => ⟨S3400000, .i32⟩
  | .hbm, ⟨72, _⟩ => ⟨S3400000, .i1⟩
  | .hbm, ⟨73, _⟩ => ⟨S_, .i32⟩
  | .hbm, ⟨74, _⟩ => ⟨S3400000, .i32⟩
  | .hbm, ⟨75, _⟩ => ⟨S3400000, .i32⟩
  | .hbm, ⟨76, _⟩ => ⟨S3400000, .i32⟩
  | .hbm, ⟨77, _⟩ => ⟨S3400000x1, .i32⟩
  | .hbm, ⟨78, _⟩ => ⟨S3400000x16, .f32⟩
  | .hbm, ⟨79, _⟩ => ⟨S3400000x1, .f32⟩
  | .hbm, ⟨80, _⟩ => ⟨S3400000x16, .f32⟩
  | .hbm, ⟨81, _⟩ => ⟨S3400000x16, .f32⟩
  | .hbm, ⟨82, _⟩ => ⟨S_, .f32⟩
  | .hbm, ⟨83, _⟩ => ⟨S200000x16, .f32⟩
  | .hbm, ⟨84, _⟩ => ⟨S3400000x1, .i32⟩
  | .hbm, ⟨85, _⟩ => ⟨S200000x16, .f32⟩
  | .hbm, ⟨86, _⟩ => ⟨S1x16, .f32⟩
  | .hbm, ⟨87, _⟩ => ⟨S200000x16, .f32⟩
  | .hbm, ⟨88, _⟩ => ⟨S_, .i32⟩
  | .hbm, ⟨89, _⟩ => ⟨S3400000, .i32⟩
  | .hbm, ⟨90, _⟩ => ⟨S3400000, .i1⟩
  | .hbm, ⟨91, _⟩ => ⟨S_, .i32⟩
  | .hbm, ⟨92, _⟩ => ⟨S3400000, .i32⟩
  | .hbm, ⟨93, _⟩ => ⟨S3400000, .i32⟩
  | .hbm, ⟨94, _⟩ => ⟨S3400000, .i32⟩
  | .hbm, ⟨95, _⟩ => ⟨S3400000x1, .i32⟩
  | .hbm, ⟨96, _⟩ => ⟨S3400000x16, .f32⟩
  | .hbm, ⟨97, _⟩ => ⟨S3400000x1, .f32⟩
  | .hbm, ⟨98, _⟩ => ⟨S3400000x16, .f32⟩
  | .hbm, ⟨99, _⟩ => ⟨S3400000x16, .f32⟩
  | .hbm, ⟨100, _⟩ => ⟨S_, .f32⟩
  | .hbm, ⟨101, _⟩ => ⟨S200000x16, .f32⟩
  | .hbm, ⟨102, _⟩ => ⟨S3400000x1, .i32⟩
  | .hbm, ⟨103, _⟩ => ⟨S200000x16, .f32⟩
  | .hbm, ⟨104, _⟩ => ⟨S1x16, .f32⟩
  | .hbm, ⟨105, _⟩ => ⟨S200000x16, .f32⟩
  | .hbm, ⟨106, _⟩ => ⟨S200000x16, .f32⟩
  | .hbm, ⟨107, _⟩ => ⟨S_, .f32⟩
  | .hbm, ⟨108, _⟩ => ⟨S256x16, .f32⟩
  | .hbm, ⟨109, _⟩ => ⟨S200000x1, .i32⟩
  | .hbm, ⟨110, _⟩ => ⟨S256x16, .f32⟩
  | .hbm, ⟨111, _⟩ => ⟨S_, .f32⟩
  | .hbm, ⟨112, _⟩ => ⟨S200000, .f32⟩
  | .hbm, ⟨113, _⟩ => ⟨S_, .f32⟩
  | .hbm, ⟨114, _⟩ => ⟨S256, .f32⟩
  | .hbm, ⟨115, _⟩ => ⟨S200000x1, .i32⟩
  | .hbm, ⟨116, _⟩ => ⟨S256, .f32⟩
  | .hbm, ⟨117, _⟩ => ⟨S_, .f32⟩
  | .hbm, ⟨118, _⟩ => ⟨S256, .f32⟩
  | .hbm, ⟨119, _⟩ => ⟨S256, .f32⟩
  | .hbm, ⟨120, _⟩ => ⟨S256x1, .f32⟩
  | .hbm, ⟨121, _⟩ => ⟨S256x16, .f32⟩
  | .hbm, ⟨122, _⟩ => ⟨S256x16, .f32⟩
  | .hbm, ⟨123, _⟩ => ⟨S1x4, .f32⟩
  | .hbm, ⟨124, _⟩ => ⟨S256x4, .f32⟩
  | .local _ .vmem, ⟨0, _⟩ => ⟨S8000x16, .f32⟩
  | .local _ .vmem, ⟨1, _⟩ => ⟨S8000x16, .f32⟩
  | .local _ .vmem, ⟨2, _⟩ => ⟨S16x16, .f32⟩
  | .local _ .vmem, ⟨3, _⟩ => ⟨S8000x16, .f32⟩
  | .local _ .vmem, ⟨4, _⟩ => ⟨S8000x16, .f32⟩
  | .local _ .vmem, ⟨5, _⟩ => ⟨S8000x16, .f32⟩
  | .local _ .vmem, ⟨6, _⟩ => ⟨S8000x16, .f32⟩
  | .local _ .vmem, ⟨7, _⟩ => ⟨S1x16, .f32⟩
  | .local _ .vmem, ⟨8, _⟩ => ⟨S16x16, .f32⟩
  | .local _ .vmem, ⟨9, _⟩ => ⟨S8000x16, .f32⟩
  | .local _ .vmem, ⟨10, _⟩ => ⟨S8000x16, .f32⟩
  | .local _ .vmem, ⟨11, _⟩ => ⟨S8000x16, .f32⟩
  | .local _ .vmem, ⟨12, _⟩ => ⟨S8000x16, .f32⟩
  | .local _ .vmem, ⟨13, _⟩ => ⟨S1x16, .f32⟩
  | .local _ .vmem, ⟨14, _⟩ => ⟨S16x16, .f32⟩
  | .local _ .vmem, ⟨15, _⟩ => ⟨S8000x16, .f32⟩
  | .local _ .vmem, ⟨16, _⟩ => ⟨S8000x16, .f32⟩
  | .local _ .vmem, ⟨17, _⟩ => ⟨S256x16, .f32⟩
  | .local _ .vmem, ⟨18, _⟩ => ⟨S16x4, .f32⟩
  | .local _ .vmem, ⟨19, _⟩ => ⟨S1x4, .f32⟩
  | .local _ .vmem, ⟨20, _⟩ => ⟨S256x4, .f32⟩
  | _, _ => ⟨S200000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_c_9 : Ref sig .tc := ⟨.hbm, 70, rfl⟩
abbrev main_v46 : Ref sig .tc := ⟨.hbm, 71, rfl⟩
abbrev main_v47 : Ref sig .tc := ⟨.hbm, 72, rfl⟩
abbrev main_c_10 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_11 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_c_12 : Ref sig .tc := ⟨.hbm, 88, rfl⟩
abbrev main_v61 : Ref sig .tc := ⟨.hbm, 89, rfl⟩
abbrev main_v62 : Ref sig .tc := ⟨.hbm, 90, rfl⟩
abbrev main_c_13 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_14 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_15 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_16 : Ref sig .tc := ⟨.hbm, 111, rfl⟩
abbrev main_v80 : Ref sig .tc := ⟨.hbm, 112, rfl⟩
abbrev main_cst_17 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_18 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem1_0 : DmaSem sig := 18
abbrev cc3_sem2_0 : DmaSem sig := 19
abbrev cc3_sem3_0 : DmaSem sig := 20

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S16x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S8000x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S256x16 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S16x4 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x4 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x4 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

class Facts₀ : Prop where
  slices_S2x3200000_S1x3200000_0_0 : S2x3200000.Slices ![0, 0] S1x3200000
  shapeCasts_S1x3200000_S3200000 : S1x3200000.ShapeCasts S3200000
  concatenates_S3200000_S200000_S3400000_d0 : Shape.Concatenates [S3200000, S200000] S3400000 0
  slices_S2x3200000_S1x3200000_1_0 : S2x3200000.Slices ![1, 0] S1x3200000
  bcast_S_S3400000 : S_.BroadcastsInDim S3400000 (![] : Fin 0 → Fin S3400000.rank)
  bcast_S_S200000 : S_.BroadcastsInDim S200000 (![] : Fin 0 → Fin S200000.rank)
  bcast_S3400000_S3400000x1_0 : S3400000.BroadcastsInDim S3400000x1 (![0] : Fin 1 → Fin S3400000x1.rank)
  inb_S8000x16_S8000x16_0_0 : ∀ a, (![0, 0] : Fin 2 → Nat) a + S8000x16.size a ≤ S8000x16.size a
  h_S8000x16 : 0 < S8000x16.numel
  bitsLt_bf16_f32 : FTy.bits .bf16 < FTy.bits .f32
  inb_S16x16_S16x16_0_0 : ∀ a, (![0, 0] : Fin 2 → Nat) a + S16x16.size a ≤ S16x16.size a
  h_S16x16 : 0 < S16x16.numel
  bcast_S3400000x1_S3400000x16_0_1 : S3400000x1.BroadcastsInDim S3400000x16 (![0, 1] : Fin 2 → Fin S3400000x16.rank)
  bcast_S_S200000x16 : S_.BroadcastsInDim S200000x16 (![] : Fin 0 → Fin S200000x16.rank)
  shapeCasts_S16_S1x16 : S16.ShapeCasts S1x16
  shapeCasts_S8000x16_S8000x16 : S8000x16.ShapeCasts S8000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S8000x16 : S1x16.Broadcasts S8000x16
  bcast_S16_S1x16_1 : S16.BroadcastsInDim S1x16 (![1] : Fin 1 → Fin S1x16.rank)
  bcast_S1x16_S200000x16_0_1 : S1x16.BroadcastsInDim S200000x16 (![0, 1] : Fin 2 → Fin S200000x16.rank)
  bcast_S_S256x16 : S_.BroadcastsInDim S256x16 (![] : Fin 0 → Fin S256x16.rank)
  bcast_S200000_S200000x1_0 : S200000.BroadcastsInDim S200000x1 (![0] : Fin 1 → Fin S200000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x16_0_1 : S256x1.BroadcastsInDim S256x16 (![0, 1] : Fin 2 → Fin S256x16.rank)
  shapeCasts_S4_S1x4 : S4.ShapeCasts S1x4
  inb_S256x16_S256x16_0_0 : ∀ a, (![0, 0] : Fin 2 → Nat) a + S256x16.size a ≤ S256x16.size a
  h_S256x16 : 0 < S256x16.numel
  shapeCasts_S256x16_S256x16 : S256x16.ShapeCasts S256x16
  inb_S16x4_S16x4_0_0 : ∀ a, (![0, 0] : Fin 2 → Nat) a + S16x4.size a ≤ S16x4.size a
  h_S16x4 : 0 < S16x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S256x4 : S1x4.Broadcasts S256x4
  reduces_S256x4_S256 : S256x4.Reduces [1] S256
  shapeCasts_S256_S256x1 : S256.ShapeCasts S256x1
  broadcasts_S256x1_S256x4 : S256x1.Broadcasts S256x4
  inb_S256x4_S256x4_0_0 : ∀ a, (![0, 0] : Fin 2 → Nat) a + S256x4.size a ≤ S256x4.size a
  h_S256x4 : 0 < S256x4.numel
  scatter_S200000_S3400000x1_S3400000_n_0_0_1_wf : ScatterDims.WF S200000 S3400000x1 S3400000 [] [0] [0] 1
  gather_S200000_S3400000x1_S3400000_n_0_n_n_0_1_1_wf : GatherDims.WF S200000 S3400000x1 S3400000 [] [0] [] [0] [] 1 ![1]
  dot_S8000x16_S16x16_S8000x16_1_0_0_1_n_n_wf : DotDims.WF S8000x16 S16x16 S8000x16 [1] [0] [0] [1] [] []
  gather_S200000x16_S3400000x1_S3400000x16_1_0_n_n_0_1_116_wf : GatherDims.WF S200000x16 S3400000x1 S3400000x16 [1] [0] [] [0] [] 1 ![1, 16]
  scatter_S200000x16_S3400000x1_S3400000x16_1_0_0_1_wf : ScatterDims.WF S200000x16 S3400000x1 S3400000x16 [1] [0] [0] 1
  scatter_S256x16_S200000x1_S200000x16_1_0_0_1_wf : ScatterDims.WF S256x16 S200000x1 S200000x16 [1] [0] [0] 1
  scatter_S256_S200000x1_S200000_n_0_0_1_wf : ScatterDims.WF S256 S200000x1 S200000 [] [0] [0] 1
  dot_S256x16_S16x4_S256x4_1_0_0_1_n_n_wf : DotDims.WF S256x16 S16x4 S256x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x16.size a ≤ S200000x16.size a
  hwx0_0 : ∀ i : grid0.Coords, EltTy.bits .f32 = 32 ∨ (Rect.block (s := S200000x16) S8000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x16.size a ≤ S16x16.size a
  hwx0_1 : ∀ i : grid0.Coords, EltTy.bits .f32 = 32 ∨ (Rect.block (s := S16x16) S16x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x16.size a ≤ S200000x16.size a
  hwx0_2 : ∀ i : grid0.Coords, EltTy.bits .f32 = 32 ∨ (Rect.block (s := S200000x16) S8000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x16.size a ≤ S200000x16.size a
  hwx1_0 : ∀ i : grid1.Coords, EltTy.bits .f32 = 32 ∨ (Rect.block (s := S200000x16) S8000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x16.size a ≤ S16x16.size a
  hwx1_2 : ∀ i : grid1.Coords, EltTy.bits .f32 = 32 ∨ (Rect.block (s := S16x16) S16x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x16.size a ≤ S200000x16.size a
  hwx1_3 : ∀ i : grid1.Coords, EltTy.bits .f32 = 32 ∨ (Rect.block (s := S200000x16) S8000x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x16.size a ≤ S200000x16.size a
  hwx2_0 : ∀ i : grid2.Coords, EltTy.bits .f32 = 32 ∨ (Rect.block (s := S200000x16) S8000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x16.size a ≤ S1x16.size a
  hwx2_1 : ∀ i : grid2.Coords, EltTy.bits .f32 = 32 ∨ (Rect.block (s := S1x16) S1x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16x16.size a ≤ S16x16.size a
  hwx2_2 : ∀ i : grid2.Coords, EltTy.bits .f32 = 32 ∨ (Rect.block (s := S16x16) S16x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8000x16.size a ≤ S200000x16.size a
  hwx2_3 : ∀ i : grid2.Coords, EltTy.bits .f32 = 32 ∨ (Rect.block (s := S200000x16) S8000x16.size (cc2_transform_3 i) (hinb2_3 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S256x16.size a ≤ S256x16.size a
  hwx3_0 : ∀ i : grid3.Coords, EltTy.bits .f32 = 32 ∨ (Rect.block (s := S256x16) S256x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16x4.size a ≤ S16x4.size a
  hwx3_1 : ∀ i : grid3.Coords, EltTy.bits .f32 = 32 ∨ (Rect.block (s := S16x4) S16x4.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x4.size a ≤ S1x4.size a
  hwx3_2 : ∀ i : grid3.Coords, EltTy.bits .f32 = 32 ∨ (Rect.block (s := S1x4) S1x4.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x4.size a ≤ S256x4.size a
  hwx3_3 : ∀ i : grid3.Coords, EltTy.bits .f32 = 32 ∨ (Rect.block (s := S256x4) S256x4.size (cc3_transform_3 i) (hinb3_3 i)).WholeWords (EltTy.packing .f32)

variable [Facts₀]

def scatter_S200000_S3400000x1_S3400000_n_0_0_1 : ScatterDims S200000 S3400000x1 S3400000 where
  updateWindowDims := []
  insertedWindowDims := [0]
  scatterDimsToOperandDims := [0]
  indexVectorDim := 1
  wf := scatter_S200000_S3400000x1_S3400000_n_0_0_1_wf
def gather_S200000_S3400000x1_S3400000_n_0_n_n_0_1_1 : GatherDims S200000 S3400000x1 S3400000 where
  offsetDims := []
  collapsedSliceDims := [0]
  operandBatchingDims := []
  startIndicesBatchingDims := []
  startIndexMap := [0]
  indexVectorDim := 1
  sliceSizes := ![1]
  wf := gather_S200000_S3400000x1_S3400000_n_0_n_n_0_1_1_wf
def dot_S8000x16_S16x16_S8000x16_1_0_0_1_n_n : DotDims S8000x16 S16x16 S8000x16 where
  lhsContracting := [1]
  rhsContracting := [0]
  lhsNonContracting := [0]
  rhsNonContracting := [1]
  lhsBatch := []
  rhsBatch := []
  wf := dot_S8000x16_S16x16_S8000x16_1_0_0_1_n_n_wf
def gather_S200000x16_S3400000x1_S3400000x16_1_0_n_n_0_1_116 : GatherDims S200000x16 S3400000x1 S3400000x16 where
  offsetDims := [1]
  collapsedSliceDims := [0]
  operandBatchingDims := []
  startIndicesBatchingDims := []
  startIndexMap := [0]
  indexVectorDim := 1
  sliceSizes := ![1, 16]
  wf := gather_S200000x16_S3400000x1_S3400000x16_1_0_n_n_0_1_116_wf
def scatter_S200000x16_S3400000x1_S3400000x16_1_0_0_1 : ScatterDims S200000x16 S3400000x1 S3400000x16 where
  updateWindowDims := [1]
  insertedWindowDims := [0]
  scatterDimsToOperandDims := [0]
  indexVectorDim := 1
  wf := scatter_S200000x16_S3400000x1_S3400000x16_1_0_0_1_wf
def scatter_S256x16_S200000x1_S200000x16_1_0_0_1 : ScatterDims S256x16 S200000x1 S200000x16 where
  updateWindowDims := [1]
  insertedWindowDims := [0]
  scatterDimsToOperandDims := [0]
  indexVectorDim := 1
  wf := scatter_S256x16_S200000x1_S200000x16_1_0_0_1_wf
def scatter_S256_S200000x1_S200000_n_0_0_1 : ScatterDims S256 S200000x1 S200000 where
  updateWindowDims := []
  insertedWindowDims := [0]
  scatterDimsToOperandDims := [0]
  indexVectorDim := 1
  wf := scatter_S256_S200000x1_S200000_n_0_0_1_wf
def dot_S256x16_S16x4_S256x4_1_0_0_1_n_n : DotDims S256x16 S16x4 S256x4 where
  lhsContracting := [1]
  rhsContracting := [0]
  lhsNonContracting := [0]
  rhsNonContracting := [1]
  lhsBatch := []
  rhsBatch := []
  wf := dot_S256x16_S16x4_S256x4_1_0_0_1_n_n_wf

abbrev win0_0 : Pipeline.Window sig grid0 :=
  Pipeline.Window.ofSpec (Memref.whole main_arg0) S8000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S8000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S8000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S16x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S8000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S8000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S16x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S8000x16.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v88) S256x16.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S16x4.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v89) S1x4.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v90) S256x4.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S200000x16 : Shape := ⟨2, ![200000, 16]⟩
abbrev S16x16 : Shape := ⟨2, ![16, 16]⟩
abbrev S16 : Shape := ⟨1, ![16]⟩
abbrev S16x4 : Shape := ⟨2, ![16, 4]⟩
abbrev S4 : Shape := ⟨1, ![4]⟩
abbrev S2x3200000 : Shape := ⟨2, ![2, 3200000]⟩
abbrev S200000 : Shape := ⟨1, ![200000]⟩
abbrev S1x3200000 : Shape := ⟨2, ![1, 3200000]⟩
abbrev S3200000 : Shape := ⟨1, ![3200000]⟩
abbrev S3400000 : Shape := ⟨1, ![3400000]⟩
abbrev S_ : Shape := ⟨0, ![]⟩
abbrev S3400000x1 : Shape := ⟨2, ![3400000, 1]⟩
abbrev S3400000x16 : Shape := ⟨2, ![3400000, 16]⟩
abbrev S1x16 : Shape := ⟨2, ![1, 16]⟩
abbrev S256x16 : Shape := ⟨2, ![256, 16]⟩
abbrev S200000x1 : Shape := ⟨2, ![200000, 1]⟩
abbrev S256 : Shape := ⟨1, ![256]⟩
abbrev S256x1 : Shape := ⟨2, ![256, 1]⟩
abbrev S256x4 : Shape := ⟨2, ![256, 4]⟩
abbrev S1x4 : Shape := ⟨2, ![1, 4]⟩

abbrev nBuf : Space → Nat
  | .hbm => 152
  | .vmem => 0
  | .smem => 0
  | _ => 0

abbrev hbmTy0_0 (i : Nat) : BufTy := match i % 128 with
  | 0 => ⟨S200000x16, .f32⟩
  | 1 => ⟨S16x16, .f32⟩
  | 2 => ⟨S16, .f32⟩
  | 3 => ⟨S16x16, .f32⟩
  | 4 => ⟨S16, .f32⟩
  | 5 => ⟨S16x16, .f32⟩
  | 6 => ⟨S16, .f32⟩
  | 7 => ⟨S16x4, .f32⟩
  | 8 => ⟨S4, .f32⟩
  | 9 => ⟨S2x3200000, .i32⟩
  | 10 => ⟨S200000, .i32⟩
  | 11 => ⟨S200000, .i32⟩
  | 12 => ⟨S1x3200000, .i32⟩
  | 13 => ⟨S3200000, .i32⟩
  | 14 => ⟨S3400000, .i32⟩
  | 15 => ⟨S1x3200000, .i32⟩
  | 16 => ⟨S3200000, .i32⟩
  | 17 => ⟨S3400000, .i32⟩
  | 18 => ⟨S_, .f32⟩
  | 19 => ⟨S3400000, .f32⟩
  | 20 => ⟨S_, .f32⟩
  | 21 => ⟨S200000, .f32⟩
  | 22 => ⟨S3400000x1, .i32⟩
  | 23 => ⟨S200000, .f32⟩
  | 24 => ⟨S_, .f32⟩
  | 25 => ⟨S200000, .f32⟩
  | 26 => ⟨S200000, .i1⟩
  | 27 => ⟨S200000, .f32⟩
  | 28 => ⟨S_, .f32⟩
  | 29 => ⟨S_, .f32⟩
  | 30 => ⟨S200000, .f32⟩
  | 31 => ⟨S200000, .f32⟩
  | 32 => ⟨S_, .i32⟩
  | 33 => ⟨S3400000, .i32⟩
  | 34 => ⟨S3400000, .i1⟩
  | 35 => ⟨S_, .i32⟩
  | 36 => ⟨S3400000, .i32⟩
  | 37 => ⟨S3400000, .i32⟩
  | 38 => ⟨S3400000, .i32⟩
  | 39 => ⟨S3400000x1, .i32⟩
  | 40 => ⟨S3400000, .f32⟩
  | 41 => ⟨S_, .i32⟩
  | 42 => ⟨S3400000, .i32⟩
  | 43 => ⟨S3400000, .i1⟩
  | 44 => ⟨S_, .i32⟩
  | 45 => ⟨S3400000, .i32⟩
  | 46 => ⟨S3400000, .i32⟩
  | 47 => ⟨S3400000, .i32⟩
  | 48 => ⟨S3400000x1, .i32⟩
  | 49 => ⟨S3400000, .f32⟩
  | 50 => ⟨S3400000, .f32⟩
  | 51 => ⟨S200000x16, .f32⟩
  | 52 => ⟨S_, .i32⟩
  | 53 => ⟨S3400000, .i32⟩
  | 54 => ⟨S3400000, .i1⟩
  | 55 => ⟨S_, .i32⟩
  | 56 => ⟨S3400000, .i32⟩
  | 57 => ⟨S3400000, .i32⟩
  | 58 => ⟨S3400000, .i32⟩
  | 59 => ⟨S3400000x1, .i32⟩
  | 60 => ⟨S3400000x16, .f32⟩
  | 61 => ⟨S3400000x1, .f32⟩
  | 62 => ⟨S3400000x16, .f32⟩
  | 63 => ⟨S3400000x16, .f32⟩
  | 64 => ⟨S_, .f32⟩
  | 65 => ⟨S200000x16, .f32⟩
  | 66 => ⟨S3400000x1, .i32⟩
  | 67 => ⟨S200000x16, .f32⟩
  | 68 => ⟨S1x16, .f32⟩
  | 69 => ⟨S200000x16, .f32⟩
  | 70 => ⟨S200000x16, .f32⟩
  | 71 => ⟨S_, .f32⟩
  | 72 => ⟨S200000x16, .f32⟩
  | 73 => ⟨S200000x16, .f32⟩
  | 74 => ⟨S200000x16, .f32⟩
  | 75 => ⟨S_, .i32⟩
  | 76 => ⟨S3400000, .i32⟩
  | 77 => ⟨S3400000, .i1⟩
  | 78 => ⟨S_, .i32⟩
  | 79 => ⟨S3400000, .i32⟩
  | 80 => ⟨S3400000, .i32⟩
  | 81 => ⟨S3400000, .i32⟩
  | 82 => ⟨S3400000x1, .i32⟩
  | 83 => ⟨S3400000x16, .f32⟩
  | 84 => ⟨S3400000x1, .f32⟩
  | 85 => ⟨S3400000x16, .f32⟩
  | 86 => ⟨S3400000x16, .f32⟩
  | 87 => ⟨S_, .f32⟩
  | 88 => ⟨S200000x16, .f32⟩
  | 89 => ⟨S3400000x1, .i32⟩
  | 90 => ⟨S200000x16, .f32⟩
  | 91 => ⟨S1x16, .f32⟩
  | 92 => ⟨S200000x16, .f32⟩
  | 93 => ⟨S200000x16, .f32⟩
  | 94 => ⟨S_, .f32⟩
  | 95 => ⟨S200000x16, .f32⟩
  | 96 => ⟨S200000x16, .f32⟩
  | 97 => ⟨S200000x16, .f32⟩
  | 98 => ⟨S_, .i32⟩
  | 99 => ⟨S3400000, .i32⟩
  | 100 => ⟨S3400000, .i1⟩
  | 101 => ⟨S_, .i32⟩
  | 102 => ⟨S3400000, .i32⟩
  | 103 => ⟨S3400000, .i32⟩
  | 104 => ⟨S3400000, .i32⟩
  | 105 => ⟨S3400000x1, .i32⟩
  | 106 => ⟨S3400000x16, .f32⟩
  | 107 => ⟨S3400000x1, .f32⟩
  | 108 => ⟨S3400000x16, .f32⟩
  | 109 => ⟨S3400000x16, .f32⟩
  | 110 => ⟨S_, .f32⟩
  | 111 => ⟨S200000x16, .f32⟩
  | 112 => ⟨S3400000x1, .i32⟩
  | 113 => ⟨S200000x16, .f32⟩
  | 114 => ⟨S1x16, .f32⟩
  | 115 => ⟨S200000x16, .f32⟩
  | 116 => ⟨S200000x16, .f32⟩
  | 117 => ⟨S_, .f32⟩
  | 118 => ⟨S256x16, .f32⟩
  | 119 => ⟨S200000x1, .i32⟩
  | 120 => ⟨S256x16, .f32⟩
  | 121 => ⟨S_, .f32⟩
  | 122 => ⟨S200000, .f32⟩
  | 123 => ⟨S_, .f32⟩
  | 124 => ⟨S256, .f32⟩
  | 125 => ⟨S200000x1, .i32⟩
  | 126 => ⟨S256, .f32⟩
  | 127 => ⟨S_, .f32⟩
  | _ => ⟨S200000x16, .f32⟩

abbrev hbmTy0_1 (i : Nat) : BufTy := match i % 128 with
  | 0 => ⟨S256, .f32⟩
  | 1 => ⟨S256, .f32⟩
  | 2 => ⟨S256x1, .f32⟩
  | 3 => ⟨S256x16, .f32⟩
  | 4 => ⟨S256x16, .f32⟩
  | 5 => ⟨S256x4, .f32⟩
  | 6 => ⟨S1x4, .f32⟩
  | 7 => ⟨S256x4, .f32⟩
  | 8 => ⟨S256x4, .f32⟩
  | 9 => ⟨S_, .f32⟩
  | 10 => ⟨S256, .f32⟩
  | 11 => ⟨S_, .f32⟩
  | 12 => ⟨S256, .f32⟩
  | 13 => ⟨S256, .f32⟩
  | 14 => ⟨S256x1, .f32⟩
  | 15 => ⟨S256x4, .f32⟩
  | 16 => ⟨S256x4, .f32⟩
  | 17 => ⟨S256x4, .f32⟩
  | 18 => ⟨S_, .f32⟩
  | 19 => ⟨S256, .f32⟩
  | 20 => ⟨S256x1, .f32⟩
  | 21 => ⟨S256x1, .f32⟩
  | 22 => ⟨S256x4, .f32⟩
  | 23 => ⟨S256x4, .f32⟩
  | _ => ⟨S200000x16, .f32⟩

abbrev hbmTy (i : Nat) : BufTy := match i / 128 with
  | 0 => hbmTy0_0 i
  | 1 => hbmTy0_1 i
  | _ => ⟨S200000x16, .f32⟩

abbrev bufTy : (tb : Table) → Fin (tcTables nBuf tb) → BufTy
  | .hbm, ⟨i, _⟩ => hbmTy i
  | _, _ => ⟨S200000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_v48 : Ref sig .tc := ⟨.hbm, 74, rfl⟩
abbrev main_c_9 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_11 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_call2_cst : Ref sig .tc := ⟨.hbm, 94, rfl⟩
abbrev main_call2_v0 : Ref sig .tc := ⟨.hbm, 95, rfl⟩
abbrev main_v65 : Ref sig .tc := ⟨.hbm, 96, rfl⟩
abbrev main_v66 : Ref sig .tc := ⟨.hbm, 97, rfl⟩
abbrev main_c_12 : Ref sig .tc := ⟨.hbm, 98, rfl⟩
abbrev main_v67 : Ref sig .tc := ⟨.hbm, 99, rfl⟩
abbrev main_v68 : Ref sig .tc := ⟨.hbm, 100, rfl⟩
abbrev main_c_13 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_14 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_15 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_16 : Ref sig .tc := ⟨.hbm, 121, rfl⟩
abbrev main_v86 : Ref sig .tc := ⟨.hbm, 122, rfl⟩
abbrev main_cst_17 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_18 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_call3_cst : Ref sig .tc := ⟨.hbm, 137, rfl⟩
abbrev main_call3_v0 : Ref sig .tc := ⟨.hbm, 138, rfl⟩
abbrev main_call3_cst_0 : Ref sig .tc := ⟨.hbm, 139, rfl⟩
abbrev main_call3_v1 : Ref sig .tc := ⟨.hbm, 140, rfl⟩
abbrev main_call3_v2 : Ref sig .tc := ⟨.hbm, 141, rfl⟩
abbrev main_call3_v3 : Ref sig .tc := ⟨.hbm, 142, rfl⟩
abbrev main_call3_v4 : Ref sig .tc := ⟨.hbm, 143, rfl⟩
abbrev main_call3_v5 : Ref sig .tc := ⟨.hbm, 144, rfl⟩
abbrev main_call3_v6 : Ref sig .tc := ⟨.hbm, 145, rfl⟩
abbrev main_call3_cst_1 : Ref sig .tc := ⟨.hbm, 146, rfl⟩
abbrev main_call3_v7 : Ref sig .tc := ⟨.hbm, 147, rfl⟩
abbrev main_call3_v8 : Ref sig .tc := ⟨.hbm, 148, rfl⟩
abbrev main_call3_v9 : Ref sig .tc := ⟨.hbm, 149, rfl⟩
abbrev main_call3_v10 : Ref sig .tc := ⟨.hbm, 150, rfl⟩
abbrev main_v99 : Ref sig .tc := ⟨.hbm, 151, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S200000_S3400000_d0 : Shape.Concatenates [S3200000, S200000] S3400000 0
  slices_S2x3200000_S1x3200000_1_0 : S2x3200000.Slices ![1, 0] S1x3200000
  bcast_S_S3400000 : S_.BroadcastsInDim S3400000 (![] : Fin 0 → Fin S3400000.rank)
  bcast_S_S200000 : S_.BroadcastsInDim S200000 (![] : Fin 0 → Fin S200000.rank)
  bcast_S3400000_S3400000x1_0 : S3400000.BroadcastsInDim S3400000x1 (![0] : Fin 1 → Fin S3400000x1.rank)
  bcast_S3400000x1_S3400000x16_0_1 : S3400000x1.BroadcastsInDim S3400000x16 (![0, 1] : Fin 2 → Fin S3400000x16.rank)
  bcast_S_S200000x16 : S_.BroadcastsInDim S200000x16 (![] : Fin 0 → Fin S200000x16.rank)
  bcast_S16_S1x16_1 : S16.BroadcastsInDim S1x16 (![1] : Fin 1 → Fin S1x16.rank)
  bcast_S1x16_S200000x16_0_1 : S1x16.BroadcastsInDim S200000x16 (![0, 1] : Fin 2 → Fin S200000x16.rank)
  bcast_S_S256x16 : S_.BroadcastsInDim S256x16 (![] : Fin 0 → Fin S256x16.rank)
  bcast_S200000_S200000x1_0 : S200000.BroadcastsInDim S200000x1 (![0] : Fin 1 → Fin S200000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x16_0_1 : S256x1.BroadcastsInDim S256x16 (![0, 1] : Fin 2 → Fin S256x16.rank)
  bcast_S4_S1x4_1 : S4.BroadcastsInDim S1x4 (![1] : Fin 1 → Fin S1x4.rank)
  bcast_S1x4_S256x4_0_1 : S1x4.BroadcastsInDim S256x4 (![0, 1] : Fin 2 → Fin S256x4.rank)
  reducesTo_S256x4_S256_d1 : S256x4.ReducesTo [1] S256
  h_S_ : 0 < S_.numel
  bcast_S256x1_S256x4_0_1 : S256x1.BroadcastsInDim S256x4 (![0, 1] : Fin 2 → Fin S256x4.rank)
  scatter_S200000_S3400000x1_S3400000_n_0_0_1_wf : ScatterDims.WF S200000 S3400000x1 S3400000 [] [0] [0] 1
  gather_S200000_S3400000x1_S3400000_n_0_n_n_0_1_1_wf : GatherDims.WF S200000 S3400000x1 S3400000 [] [0] [] [0] [] 1 ![1]
  dot_S200000x16_S16x16_S200000x16_1_0_0_1_n_n_wf : DotDims.WF S200000x16 S16x16 S200000x16 [1] [0] [0] [1] [] []
  gather_S200000x16_S3400000x1_S3400000x16_1_0_n_n_0_1_116_wf : GatherDims.WF S200000x16 S3400000x1 S3400000x16 [1] [0] [] [0] [] 1 ![1, 16]
  scatter_S200000x16_S3400000x1_S3400000x16_1_0_0_1_wf : ScatterDims.WF S200000x16 S3400000x1 S3400000x16 [1] [0] [0] 1
  scatter_S256x16_S200000x1_S200000x16_1_0_0_1_wf : ScatterDims.WF S256x16 S200000x1 S200000x16 [1] [0] [0] 1
  scatter_S256_S200000x1_S200000_n_0_0_1_wf : ScatterDims.WF S256 S200000x1 S200000 [] [0] [0] 1
  dot_S256x16_S16x4_S256x4_1_0_0_1_n_n_wf : DotDims.WF S256x16 S16x4 S256x4 [1] [0] [0] [1] [] []

variable [Facts₀]

def scatter_S200000_S3400000x1_S3400000_n_0_0_1 : ScatterDims S200000 S3400000x1 S3400000 where
  updateWindowDims := []
  insertedWindowDims := [0]
  scatterDimsToOperandDims := [0]
  indexVectorDim := 1
  wf := scatter_S200000_S3400000x1_S3400000_n_0_0_1_wf
def gather_S200000_S3400000x1_S3400000_n_0_n_n_0_1_1 : GatherDims S200000 S3400000x1 S3400000 where
  offsetDims := []
  collapsedSliceDims := [0]
  operandBatchingDims := []
  startIndicesBatchingDims := []
  startIndexMap := [0]
  indexVectorDim := 1
  sliceSizes := ![1]
  wf := gather_S200000_S3400000x1_S3400000_n_0_n_n_0_1_1_wf
def dot_S200000x16_S16x16_S200000x16_1_0_0_1_n_n : DotDims S200000x16 S16x16 S200000x16 where
  lhsContracting := [1]
  rhsContracting := [0]
  lhsNonContracting := [0]
  rhsNonContracting := [1]
  lhsBatch := []
  rhsBatch := []
  wf := dot_S200000x16_S16x16_S200000x16_1_0_0_1_n_n_wf
def gather_S200000x16_S3400000x1_S3400000x16_1_0_n_n_0_1_116 : GatherDims S200000x16 S3400000x1 S3400000x16 where
  offsetDims := [1]
  collapsedSliceDims := [0]
  operandBatchingDims := []
  startIndicesBatchingDims := []
  startIndexMap := [0]
  indexVectorDim := 1
  sliceSizes := ![1, 16]
  wf := gather_S200000x16_S3400000x1_S3400000x16_1_0_n_n_0_1_116_wf
def scatter_S200000x16_S3400000x1_S3400000x16_1_0_0_1 : ScatterDims S200000x16 S3400000x1 S3400000x16 where
  updateWindowDims := [1]
  insertedWindowDims := [0]
  scatterDimsToOperandDims := [0]
  indexVectorDim := 1
  wf := scatter_S200000x16_S3400000x1_S3400000x16_1_0_0_1_wf
def scatter_S256x16_S200000x1_S200000x16_1_0_0_1 : ScatterDims S256x16 S200000x1 S200000x16 where
  updateWindowDims := [1]
  insertedWindowDims := [0]
  scatterDimsToOperandDims := [0]
  indexVectorDim := 1
  wf := scatter_S256x16_S200000x1_S200000x16_1_0_0_1_wf
def scatter_S256_S200000x1_S200000_n_0_0_1 : ScatterDims S256 S200000x1 S200000 where
  updateWindowDims := []
  insertedWindowDims := [0]
  scatterDimsToOperandDims := [0]
  indexVectorDim := 1
  wf := scatter_S256_S200000x1_S200000_n_0_0_1_wf
def dot_S256x16_S16x4_S256x4_1_0_0_1_n_n : DotDims S256x16 S16x4 S256x4 where
  lhsContracting := [1]
  rhsContracting := [0]
  lhsNonContracting := [0]
  rhsNonContracting := [1]
  lhsBatch := []
  rhsBatch := []
  wf := dot_S256x16_S16x4_S256x4_1_0_0_1_n_n_wf

class Facts : Prop extends Facts₀ where

variable [Facts]
-- ==== Proof.KRun.lean ====
/-
  The idealized kernel's run with its result named.

  @main is ten segments: host stretches and four pallas_call regions. The contents of every buffer at each
  segment boundary are a fold from the launch memory (host operations applied in order; at a region's exit its
  output array replaced by what the pipeline's write-backs leave). Every weakly fair execution terminates
  with each unscoped buffer at the last boundary's contents; read at the result buffer this names the result
  array, and read at an argument buffer it walks back to the launch contents.
-/
import proofs.«136682_j41867341201638_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- From any memory with zero counters every weakly fair execution of @main terminates, the result buffer holding
    the last boundary's contents at it, the argument arrays as launched. -/
theorem run : θ_run defs (onTc (τ := τ) (main (F := F))) ⟨m, fun _ => 0, ρ⟩ (fun r => ∀ c : Dev nD,
      r.2.mem ((c.tc : Thread nD τ).loc main_v90) = W10 m ρ c (Proc.devRef .tc main_v90)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v90 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c)⟩)

end Cert.KernelIdeal.KRun

end
-- ==== Proof.Chain0.lean ====
/-
  The kernel's buffers when its first region is entered.

  Before the first pallas_call the kernel computes, from the edge list alone, three vectors over the 3400000 edges
  (the given edges followed by one self-loop per node): the source node of each edge, the target node of each edge,
  and the symmetric normalisation dinv(src)·dinv(dst), where dinv is the reciprocal square root of a node's in-degree
  where that degree is positive and zero elsewhere. The reference computes the same three vectors with the same
  operations, so the kernel's buffers hold the reference's stages of the same edge list. No host operation writes
  an argument buffer, so each argument still holds what it held at launch.
-/
import proofs.«136682_j41867341201638_1_alg».proof.Proof.Gen.KernelIdeal.Frame
import proofs.«136682_j41867341201638_1_alg».proof.Proof.RefReadP
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo
open Cert.ReferenceIdeal.ReadP

variable (m : (ℓ : Loc nD τ sig) → Buf (Elt Ideal) ℓ) (ρ : Dev nD → PrngReg)

/-- Argument k's launch contents on core c. -/
abbrev a0 (c : Dev nD) := m ((c.tc : Thread nD τ).loc main_arg0)
abbrev a1 (c : Dev nD) := m ((c.tc : Thread nD τ).loc main_arg1)
abbrev a2 (c : Dev nD) := m ((c.tc : Thread nD τ).loc main_arg2)
abbrev a3 (c : Dev nD) := m ((c.tc : Thread nD τ).loc main_arg3)
abbrev a4 (c : Dev nD) := m ((c.tc : Thread nD τ).loc main_arg4)
abbrev a5 (c : Dev nD) := m ((c.tc : Thread nD τ).loc main_arg5)
abbrev a6 (c : Dev nD) := m ((c.tc : Thread nD τ).loc main_arg6)
abbrev a7 (c : Dev nD) := m ((c.tc : Thread nD τ).loc main_arg7)
abbrev a8 (c : Dev nD) := m ((c.tc : Thread nD τ).loc main_arg8)
abbrev a9 (c : Dev nD) := m ((c.tc : Thread nD τ).loc main_arg9)
abbrev a10 (c : Dev nD) := m ((c.tc : Thread nD τ).loc main_arg10)

/-! ## After the first stretch: the edge vectors, the degree test and the reciprocal square roots -/

theorem src_W1 (c : Dev nD) :
    W1 (F := Ideal) m ρ c (Proc.devRef .tc main_v3) = val_main_v3 (F := Ideal) (a9 m c) := by
  show StableHlo.after hostOps0 (W0 m ρ c) (Proc.devRef .tc main_v3) = _
  after_results_simp <;> rfl

theorem dst_W1 (c : Dev nD) :
    W1 (F := Ideal) m ρ c (Proc.devRef .tc main_v6) = val_main_v6 (F := Ideal) (a9 m c) := by
  show StableHlo.after hostOps0 (W0 m ρ c) (Proc.devRef .tc main_v6) = _
  after_results_simp <;> rfl

/-- Which nodes have positive in-degree. -/
theorem degPos_W1 (c : Dev nD) :
    W1 (F := Ideal) m ρ c (Proc.devRef .tc main_v12) = val_main_v12 (F := Ideal) (a9 m c) := by
  show StableHlo.after hostOps0 (W0 m ρ c) (Proc.devRef .tc main_v12) = _
  after_results_simp <;> rfl

/-- The reciprocal square root of every node's in-degree. -/
theorem degRsqrt_W1 (c : Dev nD) :
    W1 (F := Ideal) m ρ c (Proc.devRef .tc main_v13) = val_main_v13 (F := Ideal) (a9 m c) := by
  show StableHlo.after hostOps0 (W0 m ρ c) (Proc.devRef .tc main_v13) = _
  after_results_simp <;> rfl

theorem zero_W1 (c : Dev nD) :
    W1 (F := Ideal) m ρ c (Proc.devRef .tc main_cst_2) = val_main_cst_2 (F := Ideal) := by
  show StableHlo.after hostOps0 (W0 m ρ c) (Proc.devRef .tc main_cst_2) = _
  after_results_simp <;> rfl

/-! ## The selection's typed references are the buffers themselves -/

section TypedRefs
variable {Val : EltTy → Type}
theorem of_v12 (v : (⟨S200000, .i1⟩ : BufTy).Contents Val) : (TRef.of (sig := sig) (T := ⟨S200000, .i1⟩) main_v12).ofBuf v = v := rfl
theorem of_v13 (v : (⟨S200000, .f32⟩ : BufTy).Contents Val) : (TRef.of (sig := sig) (T := ⟨S200000, .f32⟩) main_v13).ofBuf v = v := rfl
theorem of_cst2 (v : (⟨S_, .f32⟩ : BufTy).Contents Val) : (TRef.of (sig := sig) (T := ⟨S_, .f32⟩) main_cst_2).ofBuf v = v := rfl
theorem of_w0 (v : (⟨S_, .f32⟩ : BufTy).Contents Val) : (TRef.of (sig := sig) (T := ⟨S_, .f32⟩) main_call0_v0).ofBuf v = v := rfl
theorem to_w0 (v : (⟨S_, .f32⟩ : BufTy).Contents Val) : (TRef.of (sig := sig) (T := ⟨S_, .f32⟩) main_call0_v0).toBuf v = v := rfl
theorem of_w1 (v : (⟨S200000, .f32⟩ : BufTy).Contents Val) : (TRef.of (sig := sig) (T := ⟨S200000, .f32⟩) main_call0_v1).ofBuf v = v := rfl
theorem to_w1 (v : (⟨S200000, .f32⟩ : BufTy).Contents Val) : (TRef.of (sig := sig) (T := ⟨S200000, .f32⟩) main_call0_v1).toBuf v = v := rfl
theorem to_v14 (v : (⟨S200000, .f32⟩ : BufTy).Contents Val) : (TRef.of (sig := sig) (T := ⟨S200000, .f32⟩) main_v14).toBuf v = v := rfl
end TypedRefs

/-! ## After the selection: dinv, and the edge vectors carried along -/

/-- dinv: the reciprocal square root where the degree is positive, zero elsewhere. -/
theorem dinv_W2 (c : Dev nD) :
    W2 (F := Ideal) m ρ c (Proc.devRef .tc main_v14) = val_main_v14 (F := Ideal) (a9 m c) := by
  have h12 := degPos_W1 m ρ c
  have h13 := degRsqrt_W1 m ρ c
  have hz := zero_W1 m ρ c
  show StableHlo.after hostOps0_1 (W1 m ρ c) (Proc.devRef .tc main_v14) = _
  generalize W1 (F := Ideal) m ρ c = W at h12 h13 hz ⊢
  after_results_simp
  simp only [of_v12, of_v13, of_cst2, of_w0, to_w0, of_w1, to_w1, to_v14]
  rw [h12, h13, hz]
  rfl

theorem src_W2 (c : Dev nD) :
    W2 (F := Ideal) m ρ c (Proc.devRef .tc main_v3) = val_main_v3 (F := Ideal) (a9 m c) := by
  have h := src_W1 m ρ c
  show StableHlo.after hostOps0_1 (W1 m ρ c) (Proc.devRef .tc main_v3) = _
  generalize W1 (F := Ideal) m ρ c = W at h ⊢
  after_results_simp
  exact h

theorem dst_W2 (c : Dev nD) :
    W2 (F := Ideal) m ρ c (Proc.devRef .tc main_v6) = val_main_v6 (F := Ideal) (a9 m c) := by
  have h := dst_W1 m ρ c
  show StableHlo.after hostOps0_1 (W1 m ρ c) (Proc.devRef .tc main_v6) = _
  generalize W1 (F := Ideal) m ρ c = W at h ⊢
  after_results_simp
  exact h

/-! ## The first region's entry -/

/-- The source vector: the edge list's first row followed by 0 … N−1. -/
theorem src_W3 (c : Dev nD) :
    W3 (F := Ideal) m ρ c (Proc.devRef .tc main_v3) = val_main_v3 (F := Ideal) (a9 m c) := by
  have h := src_W2 m ρ c
  show StableHlo.after hostOps0_2 (W2 m ρ c) (Proc.devRef .tc main_v3) = _
  generalize W2 (F := Ideal) m ρ c = W at h ⊢
  after_results_simp
  exact h

/-- The target vector: the edge list's second row followed by 0 … N−1. -/
theorem dst_W3 (c : Dev nD) :
    W3 (F := Ideal) m ρ c (Proc.devRef .tc main_v6) = val_main_v6 (F := Ideal) (a9 m c) := by
  have h := dst_W2 m ρ c
  show StableHlo.after hostOps0_2 (W2 m ρ c) (Proc.devRef .tc main_v6) = _
  generalize W2 (F := Ideal) m ρ c = W at h ⊢
  after_results_simp
  exact h

/-- The normalisation of every edge: dinv at its source (a negative node number counted from the end) times dinv
    at its target. -/
theorem norm_W3 (c : Dev nD) :
    W3 (F := Ideal) m ρ c (Proc.devRef .tc main_v29) = val_main_v29 (F := Ideal) (a9 m c) := by
  have hd := dinv_W2 m ρ c
  have hs := src_W2 m ρ c
  have ht := dst_W2 m ρ c
  show StableHlo.after hostOps0_2 (W2 m ρ c) (Proc.devRef .tc main_v29) = _
  generalize W2 (F := Ideal) m ρ c = W at hd hs ht ⊢
  after_results_simp
  rw [hd, hs, ht]
  rfl

/-! ## The arguments at the first region's entry: no host operation writes one -/

theorem arg_W3 (c : Dev nD) (b : Ref sig .tc)
    (h0 : ∀ W : Valuation τ sig (Elt Ideal), StableHlo.after hostOps0 W (Proc.devRef .tc b) = W (Proc.devRef .tc b))
    (h1 : ∀ W : Valuation τ sig (Elt Ideal), StableHlo.after hostOps0_1 W (Proc.devRef .tc b) = W (Proc.devRef .tc b))
    (h2 : ∀ W : Valuation τ sig (Elt Ideal), StableHlo.after hostOps0_2 W (Proc.devRef .tc b) = W (Proc.devRef .tc b)) :
    W3 (F := Ideal) m ρ c (Proc.devRef .tc b) = m ((c.tc : Thread nD τ).loc b) :=
  (h2 _).trans ((h1 _).trans (h0 _))

theorem arg0_W3 (c : Dev nD) : W3 (F := Ideal) m ρ c (Proc.devRef .tc main_arg0) = a0 m c :=
  arg_W3 m ρ c main_arg0 (fun W => by after_results_simp) (fun W => by after_results_simp) (fun W => by after_results_simp)
theorem arg1_W3 (c : Dev nD) : W3 (F := Ideal) m ρ c (Proc.devRef .tc main_arg1) = a1 m c :=
  arg_W3 m ρ c main_arg1 (fun W => by after_results_simp) (fun W => by after_results_simp) (fun W => by after_results_simp)
theorem arg2_W3 (c : Dev nD) : W3 (F := Ideal) m ρ c (Proc.devRef .tc main_arg2) = a2 m c :=
  arg_W3 m ρ c main_arg2 (fun W => by after_results_simp) (fun W => by after_results_simp) (fun W => by after_results_simp)
theorem arg3_W3 (c : Dev nD) : W3 (F := Ideal) m ρ c (Proc.devRef .tc main_arg3) = a3 m c :=
  arg_W3 m ρ c main_arg3 (fun W => by after_results_simp) (fun W => by after_results_simp) (fun W => by after_results_simp)
theorem arg4_W3 (c : Dev nD) : W3 (F := Ideal) m ρ c (Proc.devRef .tc main_arg4) = a4 m c :=
  arg_W3 m ρ c main_arg4 (fun W => by after_results_simp) (fun W => by after_results_simp) (fun W => by after_results_simp)
theorem arg5_W3 (c : Dev nD) : W3 (F := Ideal) m ρ c (Proc.devRef .tc main_arg5) = a5 m c :=
  arg_W3 m ρ c main_arg5 (fun W => by after_results_simp) (fun W => by after_results_simp) (fun W => by after_results_simp)
theorem arg6_W3 (c : Dev nD) : W3 (F := Ideal) m ρ c (Proc.devRef .tc main_arg6) = a6 m c :=
  arg_W3 m ρ c main_arg6 (fun W => by after_results_simp) (fun W => by after_results_simp) (fun W => by after_results_simp)
theorem arg7_W3 (c : Dev nD) : W3 (F := Ideal) m ρ c (Proc.devRef .tc main_arg7) = a7 m c :=
  arg_W3 m ρ c main_arg7 (fun W => by after_results_simp) (fun W => by after_results_simp) (fun W => by after_results_simp)
theorem arg8_W3 (c : Dev nD) : W3 (F := Ideal) m ρ c (Proc.devRef .tc main_arg8) = a8 m c :=
  arg_W3 m ρ c main_arg8 (fun W => by after_results_simp) (fun W => by after_results_simp) (fun W => by after_results_simp)
theorem arg10_W3 (c : Dev nD) : W3 (F := Ideal) m ρ c (Proc.devRef .tc main_arg10) = a10 m c :=
  arg_W3 m ρ c main_arg10 (fun W => by after_results_simp) (fun W => by after_results_simp) (fun W => by after_results_simp)

end Cert.KernelIdeal.Chain

end
-- ==== Proof.GcnSpec.lean ====
/-
  The dense maps of a graph-convolution layer, as functions of whole arrays, entry by entry.

  `dense a w` is the matrix product of a 200000×16 array with a 16×16 one: entry (r, q) is ∑ₖ a(r, k) · w(k, q).
  `reluDense a b w` first adds the bias row b (a 1×16 array, the same for every row r) to a, clamps each entry
  below at the value of the zero word, and then multiplies by w. Both are stated on the extended reals, where a
  product row depends on the same row of the left factor only — which is why computing them 8000 rows at a time
  gives the same array.
-/
import Idealize.ShloMosaic.PureOps.Ideal
import Idealize.ShloMosaic.Lib.ValueIdx

noncomputable section

namespace Cert.GcnSpec

open Idealize.ShloMosaic Idealize.ShloMosaic.ValueIdx
open scoped BigOperators

/-- A node array: 200000 rows of 16 features. -/
abbrev Rows : Shape := ⟨2, ![200000, 16]⟩
/-- A layer's weights. -/
abbrev Sq : Shape := ⟨2, ![16, 16]⟩
/-- A layer's bias as a row. -/
abbrev Row1 : Shape := ⟨2, ![1, 16]⟩

/-- Entry (r, k) of a node array, r read off an index of the result. -/
abbrev atRow (i : Rows.Idx) (k : Fin 16) : Rows.Idx := ix2 (n0 := 200000) (n1 := 16) ⟨(i 0).val, (i 0).isLt⟩ k
/-- Entry (k, q) of the weights, q read off an index of the result. -/
abbrev atCol (i : Rows.Idx) (k : Fin 16) : Sq.Idx := ix2 (n0 := 16) (n1 := 16) k ⟨(i 1).val, (i 1).isLt⟩
/-- Entry (0, k) of the bias row. -/
abbrev atBias (k : Fin 16) : Row1.Idx := ix2 (n0 := 1) (n1 := 16) 0 k

/-- The product a · w. -/
def dense (a : Rows.Idx → EReal) (w : Sq.Idx → EReal) : Rows.Idx → EReal :=
  fun i => ∑ k : Fin 16, a (atRow i k) * w (atCol i k)

/-- relu (a + b) · w, the bias row b added to every row of a. -/
def reluDense (a : Rows.Idx → EReal) (b : Row1.Idx → EReal) (w : Sq.Idx → EReal) : Rows.Idx → EReal :=
  fun i => ∑ k : Fin 16, max (a (atRow i k) + b (atBias k)) (Ideal.ofBits .f32 0x00000000#32) * w (atCol i k)

end Cert.GcnSpec

end
-- ==== Proof.Region0.lean ====
/-
  Region 0: the dense transform of the first layer, h = x · W₁.

  The region walks the 200000 rows of x in 25 blocks of 8000 rows; at each block the body multiplies the
  block (its change of float format is the identity on exact values) by the whole 16×16 weight matrix into a zero
  accumulator and writes the 8000×16 product back. So entry (r, q) of the array the region leaves is
  ∑ₖ x(r, k) · W₁(k, q): row r lies in block r / 8000, which reads exactly the rows 8000·(r/8000) … of x, and a
  row of a product depends on that row of the left factor only.
-/
import proofs.«136682_j41867341201638_1_alg».proof.Proof.Gen.KernelIdeal.Frame
import proofs.«136682_j41867341201638_1_alg».proof.Proof.GcnSpec
import Idealize.ShloMosaic.Lib.Pipeline.Value
import Idealize.ShloMosaic.Lib.ValueIdx
import Idealize.ShloMosaic.PureOps.Ideal.Laws

set_option maxRecDepth 16384

noncomputable section

namespace Cert.KernelIdeal.RegionVal

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-- The block offsets of the body's loads and store are all zero. -/
theorem off_zero : (![0, 0] : Fin 2 → Nat) = fun _ => 0 := funext fun a => by fin_cases a <;> rfl

/-! ## The matrix unit's product at an entry

The dimension numbers contract axis 1 of the row block with axis 0 of the weights and keep the other two: the left
operand is read at (row of the result, contracted coordinate), the right one at (contracted coordinate, column of
the result). -/

/-- The left operand's row is the result's row. -/
theorem prodLhs_row (i : S8000x16.Idx) (κ : dot_S8000x16_S16x16_S8000x16_1_0_0_1_n_n.contr.Idx) :
    (dot_S8000x16_S16x16_S8000x16_1_0_0_1_n_n.lhsIdx i κ 0).val = (i 0).val := by
  unfold DotDims.lhsIdx
  rw [dif_neg (show ¬(0 : Fin S8000x16.rank) ∈ dot_S8000x16_S16x16_S8000x16_1_0_0_1_n_n.lhsBatch by decide),
    dif_pos (show (0 : Fin S8000x16.rank) ∈ dot_S8000x16_S16x16_S8000x16_1_0_0_1_n_n.lhsNonContracting by decide)]
  rfl
/-- The left operand's column is the contracted coordinate. -/
theorem prodLhs_col (i : S8000x16.Idx) (κ : dot_S8000x16_S16x16_S8000x16_1_0_0_1_n_n.contr.Idx) :
    (dot_S8000x16_S16x16_S8000x16_1_0_0_1_n_n.lhsIdx i κ 1).val = (κ ⟨0, by decide⟩).val :=
  dot_S8000x16_S16x16_S8000x16_1_0_0_1_n_n.lhsIdx_val_of_single rfl i κ
/-- The right operand's row is the contracted coordinate. -/
theorem prodRhs_row (i : S8000x16.Idx) (κ : dot_S8000x16_S16x16_S8000x16_1_0_0_1_n_n.contr.Idx) :
    (dot_S8000x16_S16x16_S8000x16_1_0_0_1_n_n.rhsIdx i κ 0).val = (κ ⟨0, by decide⟩).val :=
  dot_S8000x16_S16x16_S8000x16_1_0_0_1_n_n.rhsIdx_val_of_single rfl i κ
/-- The right operand's column is the result's column. -/
theorem prodRhs_col (i : S8000x16.Idx) (κ : dot_S8000x16_S16x16_S8000x16_1_0_0_1_n_n.contr.Idx) :
    (dot_S8000x16_S16x16_S8000x16_1_0_0_1_n_n.rhsIdx i κ 1).val = (i 1).val := by
  unfold DotDims.rhsIdx
  rw [dif_neg (show ¬(1 : Fin S16x16.rank) ∈ dot_S8000x16_S16x16_S8000x16_1_0_0_1_n_n.rhsBatch by decide),
    dif_pos (show (1 : Fin S16x16.rank) ∈ dot_S8000x16_S16x16_S8000x16_1_0_0_1_n_n.rhsNonContracting by decide)]
  rfl

/-- A product of an 8000×16 block with a 16×16 matrix into the zero accumulator, at entry (p, q): the sum over k of
    the block at (p, k) times the matrix at (k, q). -/
theorem matmul_zero_apply (a : FVec Ideal S8000x16 .bf16) (w : FVec Ideal S16x16 .bf16) (p : Fin 8000) (q : Fin 16) :
    matmul dot_S8000x16_S16x16_S8000x16_1_0_0_1_n_n none a w (constant (F := Ideal) S8000x16 .f32 0x00000000#32)
        (ix2 (n0 := 8000) (n1 := 16) p q)
      = ∑ k : Fin 16, a (ix2 (n0 := 8000) (n1 := 16) p k) * w (ix2 (n0 := 16) (n1 := 16) k q) := by
  simp only [matmul]
  rw [Ideal.matmul_constant_zero_apply,
    ← Equiv.sum_comp (contrEquiv1 dot_S8000x16_S16x16_S8000x16_1_0_0_1_n_n 16 rfl rfl).symm]
  refine Finset.sum_congr rfl fun k _ => ?_
  have hk := contrEquiv1_symm_val dot_S8000x16_S16x16_S8000x16_1_0_0_1_n_n 16 rfl rfl k
  have el : dot_S8000x16_S16x16_S8000x16_1_0_0_1_n_n.lhsIdx (ix2 (n0 := 8000) (n1 := 16) p q)
      ((contrEquiv1 dot_S8000x16_S16x16_S8000x16_1_0_0_1_n_n 16 rfl rfl).symm k) = ix2 (n0 := 8000) (n1 := 16) p k :=
    funext fun a => Fin.ext (by
      match a with
      | ⟨0, _⟩ => exact prodLhs_row _ _
      | ⟨1, _⟩ => exact (prodLhs_col _ _).trans hk)
  have er : dot_S8000x16_S16x16_S8000x16_1_0_0_1_n_n.rhsIdx (ix2 (n0 := 8000) (n1 := 16) p q)
      ((contrEquiv1 dot_S8000x16_S16x16_S8000x16_1_0_0_1_n_n 16 rfl rfl).symm k) = ix2 (n0 := 16) (n1 := 16) k q :=
    funext fun a => Fin.ext (by
      match a with
      | ⟨0, _⟩ => exact (prodRhs_row _ _).trans hk
      | ⟨1, _⟩ => exact prodRhs_col _ _)
  rw [el, er]

/-- The body's stored value at entry (p, q) of the block: the sum over k of the row block at (p, k) times the
    weights at (k, q) — the change of float format of each operand is the identity on the extended reals. -/
theorem blockProduct_apply (x0 : Vec Ideal S8000x16 .f32) (x1 : Vec Ideal S16x16 .f32) (p : Fin 8000) (q : Fin 16) :
    k0_pay1 (F := Ideal) x0 x1 (ix2 (n0 := 8000) (n1 := 16) p q)
      = ∑ k : Fin 16, x0 (ix2 (n0 := 8000) (n1 := 16) p k) * x1 (ix2 (n0 := 16) (n1 := 16) k q) := by
  unfold k0_pay1
  exact matmul_zero_apply _ _ p q

/-! ## From the body's block to entries of the arrays -/

/-- The body's stored value at an entry y of the block, for ANY row block x0 and weights x1 that are what the arrays
    A and W hold in rows 8000·b … and everywhere: the product A · W at the entry i of the array in row
    8000·b + (row of y) and y's column. -/
theorem blockProduct_eq_dense (A : Cert.GcnSpec.Rows.Idx → EReal) (W : Cert.GcnSpec.Sq.Idx → EReal)
    (x0 : Vec Ideal S8000x16 .f32) (x1 : Vec Ideal S16x16 .f32) (b : Nat)
    (h0 : ∀ (y : S8000x16.Idx) (i : S200000x16.Idx), (i 0).val = b * 8000 + (y 0).val → (i 1).val = (y 1).val → x0 y = A i)
    (h1 : ∀ y : S16x16.Idx, x1 y = W y)
    (y : S8000x16.Idx) (i : S200000x16.Idx) (hi0 : (i 0).val = b * 8000 + (y 0).val) (hi1 : (i 1).val = (y 1).val) :
    k0_pay1 (F := Ideal) x0 x1 y = Cert.GcnSpec.dense A W i := by
  obtain ⟨p, q, rfl⟩ : ∃ (p : Fin 8000) (q : Fin 16), y = ix2 p q := ⟨y 0, y 1, eq_ix2 y⟩
  rw [blockProduct_apply]
  unfold Cert.GcnSpec.dense
  refine Finset.sum_congr rfl fun k _ => ?_
  rw [h0 (ix2 (n0 := 8000) (n1 := 16) p k) (Cert.GcnSpec.atRow i k) hi0 rfl, h1]
  exact congrArg (fun z => A (Cert.GcnSpec.atRow i k) * W z) (funext fun a => Fin.ext (by
    match a with
    | ⟨0, _⟩ => rfl
    | ⟨1, _⟩ => exact hi1.symm))

variable (V : (c : Dev nD) → (b : Ref sig .tc) → Buf (Elt Ideal) ((c : Thread nD τ).loc b))

/-- The printed index maps over the 25 points: the row blocks of x and of the result move with the point, the
    weights' one block stays. -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The block of x at point t is rows 8000·t … 8000·t + 7999 of x. -/
theorem rowBlock0 (c : Dev nD) (t : Fin cfg0.N) (y : S8000x16.Idx) (i : S200000x16.Idx)
    (hi0 : (i 0).val = t.val * 8000 + (y 0).val) (hi1 : (i 1).val = (y 1).val) :
    (iblk0 (F := Ideal) V c 0 t : Vec Ideal S8000x16 .f32) y = (V c main_arg0 : S200000x16.Idx → Elt Ideal .f32) i := by
  obtain ⟨e0, e1, -⟩ := blockIndex0 t
  unfold iblk0
  rw [View.read_apply]
  show V c main_arg0 _ = V c main_arg0 _
  refine congrArg (V c main_arg0) (funext fun a => Fin.ext ?_)
  match a with
  | ⟨0, _⟩ => show win0_0.index t (0 : Fin 2) * 8000 + 1 * (y 0).val = (i 0).val; rw [e0, hi0]; omega
  | ⟨1, _⟩ => show win0_0.index t (1 : Fin 2) * 16 + 1 * (y 1).val = (i 1).val; rw [e1, hi1]; omega

/-- The block of the weights at every point is the whole 16×16 array. -/
theorem weightBlock0 (c : Dev nD) (t : Fin cfg0.N) (y : S16x16.Idx) :
    (iblk0 (F := Ideal) V c 1 t : Vec Ideal S16x16 .f32) y = (V c main_arg1 : S16x16.Idx → Elt Ideal .f32) y := by
  obtain ⟨-, -, e0, e1, -⟩ := blockIndex0 t
  unfold iblk0
  rw [View.read_apply]
  show V c main_arg1 _ = V c main_arg1 _
  refine congrArg (V c main_arg1) (funext fun a => Fin.ext ?_)
  match a with
  | ⟨0, _⟩ => show win0_1.index t (0 : Fin 2) * 16 + 1 * (y 0).val = (y 0).val; rw [e0]; omega
  | ⟨1, _⟩ => show win0_1.index t (1 : Fin 2) * 16 + 1 * (y 1).val = (y 1).val; rw [e1]; omega

/-- What point t writes back is block t of the product x · W₁ of the arrays as the region finds them. -/
theorem flushed_eq0 (c : Dev nD) (t : Fin cfg0.N) :
    (dat0 (F := Ideal) V c).flushed 2 t
      = ((cfg0.win 2).blk t).view.read (Elt Ideal) (Cert.GcnSpec.dense (V c main_arg0) (V c main_arg1)) := by
  show (cfg0.win 2).cut (grid0.coords t) ((dat0 V c).after 2 t) = _
  rw [after0_2]
  unfold out0_2
  rw [View.canon_unit_zero off_zero]
  simp only [View.ld_unit_zero (S := S8000x16) off_zero, View.ld_unit_zero (S := S16x16) off_zero]
  obtain ⟨-, -, -, -, e0, e1⟩ := blockIndex0 t
  funext j
  rw [View.read_apply]
  refine blockProduct_eq_dense (V c main_arg0) (V c main_arg1) (iblk0 V c 0 t) (iblk0 V c 1 t) t.val
    (rowBlock0 V c t) (weightBlock0 V c t) _ _ ?_ ?_
  · show win0_2.index t (0 : Fin 2) * 8000 + 1 * (j 0).val = t.val * 8000 + (j 0).val; rw [e0]; omega
  · show win0_2.index t (1 : Fin 2) * 16 + 1 * (j 1).val = (j 1).val; rw [e1]; omega

/-- An index of the result array is in point t's block iff each coordinate is in the block's range on its axis. -/
theorem mem_blk0 (t : Fin cfg0.N) (i : S200000x16.Idx) :
    i ∈ ((cfg0.win 2).blk t).view.set ↔ ∀ a : Fin 2, win0_2.index t a * S8000x16.size a ≤ (i a).val
      ∧ (i a).val < win0_2.index t a * S8000x16.size a + S8000x16.size a := by
  show i ∈ ((View.whole main_v30).slice (win0_2.rect t)).set ↔ _
  rw [View.set_slice_whole, Rect.mem_set_unit]
  exact Iff.rfl

/-- Row r of the result lies in the block of point r / 8000, and every point writes back: the 25 blocks cover the array. -/
theorem cover0 (i : S200000x16.Idx) :
    ∃ t : Fin cfg0.N, (cfg0.win 2).flush t = true ∧ i ∈ ((cfg0.win 2).blk t).view.set := by
  have hN : cfg0.N = 25 := N_0
  have hi0 : (i 0).val < 200000 := (i 0).isLt
  have hi1 : (i 1).val < 16 := (i 1).isLt
  refine ⟨⟨(i 0).val / 8000, by rw [hN]; omega⟩, flush0_2 _, ?_⟩
  rw [mem_blk0]
  obtain ⟨-, -, -, -, e0, e1⟩ := blockIndex0 ⟨(i 0).val / 8000, by rw [hN]; omega⟩
  intro a
  match a with
  | ⟨0, _⟩ =>
    show win0_2.index _ (0 : Fin 2) * 8000 ≤ (i 0).val ∧ (i 0).val < win0_2.index _ (0 : Fin 2) * 8000 + 8000
    rw [e0]; show (i 0).val / 8000 * 8000 ≤ (i 0).val ∧ (i 0).val < (i 0).val / 8000 * 8000 + 8000; omega
  | ⟨1, _⟩ =>
    show win0_2.index _ (1 : Fin 2) * 16 ≤ (i 1).val ∧ (i 1).val < win0_2.index _ (1 : Fin 2) * 16 + 16
    rw [e1]; omega

/-- Region 0: the array the 25 row blocks leave is the product of the entry arrays. -/
theorem arr0 (c : Dev nD) :
    (dat0 (F := Ideal) V c).arrAt 2 cfg0.N = Cert.GcnSpec.dense (V c main_arg0) (V c main_arg1) :=
  (dat0 (F := Ideal) V c).arrAt_eq_of_cover 2 (Cert.GcnSpec.dense (V c main_arg0) (V c main_arg1))
    (fun t _ => flushed_eq0 V c t) cover0

end Cert.KernelIdeal.RegionVal

end
-- ==== Proof.Region1.lean ====
/-
  Region 1: the fused dense step after the first aggregation, relu(agg + b) · W.

  The region walks the 200000 rows of the aggregated array in 25 blocks of 8000 rows. At each block the body adds the
  bias row (a 1×16 array, broadcast over the 8000 rows) to the block, clamps every entry below at the value of the
  zero word, and multiplies the result (its change of float format is the identity on exact values) by the whole
  16×16 weight matrix into a zero accumulator; the 8000×16 product is written back. So entry (r, q) of the array the
  region leaves is ∑ₖ max(agg(r, k) + b(0, k), 0) · W(k, q): row r lies in block r / 8000, which reads exactly the rows
  8000·(r/8000) … of agg, the bias and the weights are the same at every block, and a row of a product depends on
  that row of the left factor only.
-/
import proofs.«136682_j41867341201638_1_alg».proof.Proof.Gen.KernelIdeal.Frame
import proofs.«136682_j41867341201638_1_alg».proof.Proof.GcnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionVal

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-- The block offsets of the body's loads and store are all zero. -/
theorem off_zero1 : (![0, 0] : Fin 2 → Nat) = fun _ => 0 := funext fun a => by fin_cases a <;> rfl

/-! ## The matrix unit's product at an entry

The dimension numbers contract axis 1 of the left block with axis 0 of the weights and keep the other two: the left
operand is read at (row of the result, contracted coordinate), the right one at (contracted coordinate, column of
the result). -/

/-- The left operand's row is the result's row. -/
theorem reluLhs_row1 (i : S8000x16.Idx) (κ : dot_S8000x16_S16x16_S8000x16_1_0_0_1_n_n.contr.Idx) :
    (dot_S8000x16_S16x16_S8000x16_1_0_0_1_n_n.lhsIdx i κ 0).val = (i 0).val := by
  unfold DotDims.lhsIdx
  rw [dif_neg (show ¬(0 : Fin S8000x16.rank) ∈ dot_S8000x16_S16x16_S8000x16_1_0_0_1_n_n.lhsBatch by decide),
    dif_pos (show (0 : Fin S8000x16.rank) ∈ dot_S8000x16_S16x16_S8000x16_1_0_0_1_n_n.lhsNonContracting by decide)]
  rfl
/-- The left operand's column is the contracted coordinate. -/
theorem reluLhs_col1 (i : S8000x16.Idx) (κ : dot_S8000x16_S16x16_S8000x16_1_0_0_1_n_n.contr.Idx) :
    (dot_S8000x16_S16x16_S8000x16_1_0_0_1_n_n.lhsIdx i κ 1).val = (κ ⟨0, by decide⟩).val :=
  dot_S8000x16_S16x16_S8000x16_1_0_0_1_n_n.lhsIdx_val_of_single rfl i κ
/-- The right operand's row is the contracted coordinate. -/
theorem reluRhs_row1 (i : S8000x16.Idx) (κ : dot_S8000x16_S16x16_S8000x16_1_0_0_1_n_n.contr.Idx) :
    (dot_S8000x16_S16x16_S8000x16_1_0_0_1_n_n.rhsIdx i κ 0).val = (κ ⟨0, by decide⟩).val :=
  dot_S8000x16_S16x16_S8000x16_1_0_0_1_n_n.rhsIdx_val_of_single rfl i κ
/-- The right operand's column is the result's column. -/
theorem reluRhs_col1 (i : S8000x16.Idx) (κ : dot_S8000x16_S16x16_S8000x16_1_0_0_1_n_n.contr.Idx) :
    (dot_S8000x16_S16x16_S8000x16_1_0_0_1_n_n.rhsIdx i κ 1).val = (i 1).val := by
  unfold DotDims.rhsIdx
  rw [dif_neg (show ¬(1 : Fin S16x16.rank) ∈ dot_S8000x16_S16x16_S8000x16_1_0_0_1_n_n.rhsBatch by decide),
    dif_pos (show (1 : Fin S16x16.rank) ∈ dot_S8000x16_S16x16_S8000x16_1_0_0_1_n_n.rhsNonContracting by decide)]
  rfl

/-- A product of an 8000×16 block with a 16×16 matrix into the zero accumulator, at entry (p, q): the sum over k of
    the block at (p, k) times the matrix at (k, q). -/
theorem matmul_zero_apply1 (a : FVec Ideal S8000x16 .bf16) (w : FVec Ideal S16x16 .bf16) (p : Fin 8000) (q : Fin 16) :
    matmul dot_S8000x16_S16x16_S8000x16_1_0_0_1_n_n none a w (constant (F := Ideal) S8000x16 .f32 0x00000000#32)
        (ix2 (n0 := 8000) (n1 := 16) p q)
      = ∑ k : Fin 16, a (ix2 (n0 := 8000) (n1 := 16) p k) * w (ix2 (n0 := 16) (n1 := 16) k q) := by
  simp only [matmul]
  rw [Ideal.matmul_constant_zero_apply,
    ← Equiv.sum_comp (contrEquiv1 dot_S8000x16_S16x16_S8000x16_1_0_0_1_n_n 16 rfl rfl).symm]
  refine Finset.sum_congr rfl fun k _ => ?_
  have hk := contrEquiv1_symm_val dot_S8000x16_S16x16_S8000x16_1_0_0_1_n_n 16 rfl rfl k
  have el : dot_S8000x16_S16x16_S8000x16_1_0_0_1_n_n.lhsIdx (ix2 (n0 := 8000) (n1 := 16) p q)
      ((contrEquiv1 dot_S8000x16_S16x16_S8000x16_1_0_0_1_n_n 16 rfl rfl).symm k) = ix2 (n0 := 8000) (n1 := 16) p k :=
    funext fun a => Fin.ext (by
      match a with
      | ⟨0, _⟩ => exact reluLhs_row1 _ _
      | ⟨1, _⟩ => exact (reluLhs_col1 _ _).trans hk)
  have er : dot_S8000x16_S16x16_S8000x16_1_0_0_1_n_n.rhsIdx (ix2 (n0 := 8000) (n1 := 16) p q)
      ((contrEquiv1 dot_S8000x16_S16x16_S8000x16_1_0_0_1_n_n 16 rfl rfl).symm k) = ix2 (n0 := 16) (n1 := 16) k q :=
    funext fun a => Fin.ext (by
      match a with
      | ⟨0, _⟩ => exact (reluRhs_row1 _ _).trans hk
      | ⟨1, _⟩ => exact reluRhs_col1 _ _)
  rw [el, er]

/-- The body's stored value at entry (p, q) of the block: the sum over k of the clamped (row block + bias row) at
    (p, k) times the weights at (k, q). The two casts to the same shape are the identity, the broadcast bias at
    (p, k) is the bias row at (0, k), and each change of float format is the identity on the extended reals. -/
theorem blockReluProduct_apply1 (x0 : Vec Ideal S8000x16 .f32) (x1 : Vec Ideal S1x16 .f32) (x2 : Vec Ideal S16x16 .f32)
    (p : Fin 8000) (q : Fin 16) :
    k1_pay1 (F := Ideal) x0 x1 x2 (ix2 (n0 := 8000) (n1 := 16) p q)
      = ∑ k : Fin 16, max (x0 (ix2 (n0 := 8000) (n1 := 16) p k) + x1 (ix2 (n0 := 1) (n1 := 16) 0 k))
          (Ideal.ofBits .f32 0x00000000#32) * x2 (ix2 (n0 := 16) (n1 := 16) k q) := by
  unfold k1_pay1
  refine (matmul_zero_apply1 _ _ p q).trans (Finset.sum_congr rfl fun k _ => ?_)
  show max (shapeCast S8000x16 x0 shapeCasts_S8000x16_S8000x16 (ix2 (n0 := 8000) (n1 := 16) p k)
      + broadcastTo S8000x16 (shapeCast S1x16 x1 shapeCasts_S1x16_S1x16) broadcasts_S1x16_S8000x16 (ix2 (n0 := 8000) (n1 := 16) p k))
      (Ideal.ofBits .f32 0x00000000#32) * x2 (ix2 (n0 := 16) (n1 := 16) k q) = _
  rw [shapeCast_self, shapeCast_self, broadcastTo_1b_ab_apply]

/-! ## From the body's block to entries of the arrays -/

/-- The body's stored value at an entry y of the block, for ANY row block x0, bias x1 and weights x2 that are what the
    arrays A, B and W hold in rows 8000·b … and everywhere: relu(A + B) · W at the entry i of the array in row
    8000·b + (row of y) and y's column. -/
theorem blockReluProduct_eq_reluDense1 (A : Cert.GcnSpec.Rows.Idx → EReal) (B : Cert.GcnSpec.Row1.Idx → EReal)
    (W : Cert.GcnSpec.Sq.Idx → EReal)
    (x0 : Vec Ideal S8000x16 .f32) (x1 : Vec Ideal S1x16 .f32) (x2 : Vec Ideal S16x16 .f32) (b : Nat)
    (h0 : ∀ (y : S8000x16.Idx) (i : S200000x16.Idx), (i 0).val = b * 8000 + (y 0).val → (i 1).val = (y 1).val → x0 y = A i)
    (h1 : ∀ y : S1x16.Idx, x1 y = B y) (h2 : ∀ y : S16x16.Idx, x2 y = W y)
    (y : S8000x16.Idx) (i : S200000x16.Idx) (hi0 : (i 0).val = b * 8000 + (y 0).val) (hi1 : (i 1).val = (y 1).val) :
    k1_pay1 (F := Ideal) x0 x1 x2 y = Cert.GcnSpec.reluDense A B W i := by
  obtain ⟨p, q, rfl⟩ : ∃ (p : Fin 8000) (q : Fin 16), y = ix2 p q := ⟨y 0, y 1, eq_ix2 y⟩
  rw [blockReluProduct_apply1]
  unfold Cert.GcnSpec.reluDense
  refine Finset.sum_congr rfl fun k _ => ?_
  rw [h0 (ix2 (n0 := 8000) (n1 := 16) p k) (Cert.GcnSpec.atRow i k) hi0 rfl, h1, h2]
  exact congrArg (fun z => max (A (Cert.GcnSpec.atRow i k) + B (Cert.GcnSpec.atBias k)) (Ideal.ofBits .f32 0x00000000#32) * W z)
    (funext fun a => Fin.ext (by
      match a with
      | ⟨0, _⟩ => rfl
      | ⟨1, _⟩ => exact hi1.symm))

variable (V : (c : Dev nD) → (b : Ref sig .tc) → Buf (Elt Ideal) ((c : Thread nD τ).loc b))

/-- The printed index maps over the 25 points: the row blocks of the aggregated array and of the result move with the
    point, the bias row's and the weights' one block stay. -/
theorem blockIndex1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The block of the aggregated array at point t is its rows 8000·t … 8000·t + 7999. -/
theorem rowBlock1 (c : Dev nD) (t : Fin cfg1.N) (y : S8000x16.Idx) (i : S200000x16.Idx)
    (hi0 : (i 0).val = t.val * 8000 + (y 0).val) (hi1 : (i 1).val = (y 1).val) :
    (iblk1 (F := Ideal) V c 0 t : Vec Ideal S8000x16 .f32) y = (V c main_v43 : S200000x16.Idx → Elt Ideal .f32) i := by
  obtain ⟨e0, e1, -⟩ := blockIndex1 t
  unfold iblk1
  rw [View.read_apply]
  show V c main_v43 _ = V c main_v43 _
  refine congrArg (V c main_v43) (funext fun a => Fin.ext ?_)
  match a with
  | ⟨0, _⟩ => show win1_0.index t (0 : Fin 2) * 8000 + 1 * (y 0).val = (i 0).val; rw [e0, hi0]; omega
  | ⟨1, _⟩ => show win1_0.index t (1 : Fin 2) * 16 + 1 * (y 1).val = (i 1).val; rw [e1, hi1]; omega

/-- The block of the bias at every point is the whole 1×16 array. -/
theorem biasBlock1 (c : Dev nD) (t : Fin cfg1.N) (y : S1x16.Idx) :
    (iblk1 (F := Ideal) V c 1 t : Vec Ideal S1x16 .f32) y = (V c main_v44 : S1x16.Idx → Elt Ideal .f32) y := by
  obtain ⟨-, -, e0, e1, -⟩ := blockIndex1 t
  unfold iblk1
  rw [View.read_apply]
  show V c main_v44 _ = V c main_v44 _
  refine congrArg (V c main_v44) (funext fun a => Fin.ext ?_)
  match a with
  | ⟨0, _⟩ => show win1_1.index t (0 : Fin 2) * 1 + 1 * (y 0).val = (y 0).val; rw [e0]; omega
  | ⟨1, _⟩ => show win1_1.index t (1 : Fin 2) * 16 + 1 * (y 1).val = (y 1).val; rw [e1]; omega

/-- The block of the weights at every point is the whole 16×16 array. -/
theorem weightBlock1 (c : Dev nD) (t : Fin cfg1.N) (y : S16x16.Idx) :
    (iblk1 (F := Ideal) V c 2 t : Vec Ideal S16x16 .f32) y = (V c main_arg3 : S16x16.Idx → Elt Ideal .f32) y := by
  obtain ⟨-, -, -, -, e0, e1, -⟩ := blockIndex1 t
  unfold iblk1
  rw [View.read_apply]
  show V c main_arg3 _ = V c main_arg3 _
  refine congrArg (V c main_arg3) (funext fun a => Fin.ext ?_)
  match a with
  | ⟨0, _⟩ => show win1_2.index t (0 : Fin 2) * 16 + 1 * (y 0).val = (y 0).val; rw [e0]; omega
  | ⟨1, _⟩ => show win1_2.index t (1 : Fin 2) * 16 + 1 * (y 1).val = (y 1).val; rw [e1]; omega

/-- What point t writes back is block t of relu(agg + b) · W of the arrays as the region finds them. -/
theorem flushed_eq1 (c : Dev nD) (t : Fin cfg1.N) :
    (dat1 (F := Ideal) V c).flushed 3 t
      = ((cfg1.win 3).blk t).view.read (Elt Ideal) (Cert.GcnSpec.reluDense (V c main_v43) (V c main_v44) (V c main_arg3)) := by
  show (cfg1.win 3).cut (grid1.coords t) ((dat1 V c).after 3 t) = _
  rw [after1_3]
  unfold out1_3
  rw [View.canon_unit_zero off_zero1]
  simp only [View.ld_unit_zero (S := S8000x16) off_zero1, View.ld_unit_zero (S := S1x16) off_zero1,
    View.ld_unit_zero (S := S16x16) off_zero1]
  obtain ⟨-, -, -, -, -, -, e0, e1⟩ := blockIndex1 t
  funext j
  rw [View.read_apply]
  refine blockReluProduct_eq_reluDense1 (V c main_v43) (V c main_v44) (V c main_arg3)
    (iblk1 V c 0 t) (iblk1 V c 1 t) (iblk1 V c 2 t) t.val
    (rowBlock1 V c t) (biasBlock1 V c t) (weightBlock1 V c t) _ _ ?_ ?_
  · show win1_3.index t (0 : Fin 2) * 8000 + 1 * (j 0).val = t.val * 8000 + (j 0).val; rw [e0]; omega
  · show win1_3.index t (1 : Fin 2) * 16 + 1 * (j 1).val = (j 1).val; rw [e1]; omega

/-- An index of the result array is in point t's block iff each coordinate is in the block's range on its axis. -/
theorem mem_blk1 (t : Fin cfg1.N) (i : S200000x16.Idx) :
    i ∈ ((cfg1.win 3).blk t).view.set ↔ ∀ a : Fin 2, win1_3.index t a * S8000x16.size a ≤ (i a).val
      ∧ (i a).val < win1_3.index t a * S8000x16.size a + S8000x16.size a := by
  show i ∈ ((View.whole main_v45).slice (win1_3.rect t)).set ↔ _
  rw [View.set_slice_whole, Rect.mem_set_unit]
  exact Iff.rfl

/-- Row r of the result lies in the block of point r / 8000, and every point writes back: the 25 blocks cover the array. -/
theorem cover1 (i : S200000x16.Idx) :
    ∃ t : Fin cfg1.N, (cfg1.win 3).flush t = true ∧ i ∈ ((cfg1.win 3).blk t).view.set := by
  have hN : cfg1.N = 25 := N_1
  have hi0 : (i 0).val < 200000 := (i 0).isLt
  have hi1 : (i 1).val < 16 := (i 1).isLt
  refine ⟨⟨(i 0).val / 8000, by rw [hN]; omega⟩, flush1_3 _, ?_⟩
  rw [mem_blk1]
  obtain ⟨-, -, -, -, -, -, e0, e1⟩ := blockIndex1 ⟨(i 0).val / 8000, by rw [hN]; omega⟩
  intro a
  match a with
  | ⟨0, _⟩ =>
    show win1_3.index _ (0 : Fin 2) * 8000 ≤ (i 0).val ∧ (i 0).val < win1_3.index _ (0 : Fin 2) * 8000 + 8000
    rw [e0]; show (i 0).val / 8000 * 8000 ≤ (i 0).val ∧ (i 0).val < (i 0).val / 8000 * 8000 + 8000; omega
  | ⟨1, _⟩ =>
    show win1_3.index _ (1 : Fin 2) * 16 ≤ (i 1).val ∧ (i 1).val < win1_3.index _ (1 : Fin 2) * 16 + 16
    rw [e1]; omega

/-- Region 1: the array the 25 row blocks leave is relu(agg + b) · W of the entry arrays. -/
theorem arr1 (c : Dev nD) :
    (dat1 (F := Ideal) V c).arrAt 3 cfg1.N
      = Cert.GcnSpec.reluDense (V c main_v43) (V c main_v44) (V c main_arg3) :=
  (dat1 (F := Ideal) V c).arrAt_eq_of_cover 3 (Cert.GcnSpec.reluDense (V c main_v43) (V c main_v44) (V c main_arg3))
    (fun t _ => flushed_eq1 V c t) cover1

end Cert.KernelIdeal.RegionVal

end
-- ==== Proof.RefDense.lean ====
/-
  The reference's three dense layers as functions of whole arrays.

  The reference multiplies the node array by a layer's weights with one dot_general over all 200000 rows; read at an
  entry (r, q) that is ∑ₖ a(r, k) · w(k, q), the function `dense`. In the second and third layers the left factor
  is relu of the previous aggregation plus the bias, the bias a vector of 16 entries given a leading unit axis and
  repeated over the rows; read at (r, k) the bias contributes its entry k, whatever r. So those layers are
  `reluDense` of the aggregation, the bias as one row, and the weights.
-/
import proofs.«136682_j41867341201638_1_alg».proof.Proof.GcnSpec
import proofs.«136682_j41867341201638_1_alg».proof.Proof.RefReadP

noncomputable section

namespace Cert.ReferenceIdeal.RefDense

open Cert.ReferenceIdeal Cert.ReferenceIdeal.ReadP Idealize.ShloMosaic Idealize.ShloMosaic.ValueIdx Cert.GcnSpec
open scoped BigOperators

/-- A bias vector as a one-row matrix: entry (0, k) is the vector's entry k. -/
def biasRow (b : (⟨1, ![16]⟩ : Shape).Idx → EReal) : Row1.Idx → EReal :=
  fun j => b (ix1 (n := 16) ⟨(j 1).val, (j 1).isLt⟩)

/-! ## The operand indices of the three products -/

theorem lidx30 (i : S200000x16.Idx) (k : Fin 16) : lidx_main_v30 i k = atRow i k :=
  funext fun a => by match a with | ⟨0, _⟩ => rfl | ⟨1, _⟩ => rfl
theorem ridx30 (i : S200000x16.Idx) (k : Fin 16) : ridx_main_v30 i k = atCol i k :=
  funext fun a => by match a with | ⟨0, _⟩ => rfl | ⟨1, _⟩ => rfl
theorem lidx48 (i : S200000x16.Idx) (k : Fin 16) : lidx_main_v48 i k = atRow i k :=
  funext fun a => by match a with | ⟨0, _⟩ => rfl | ⟨1, _⟩ => rfl
theorem ridx48 (i : S200000x16.Idx) (k : Fin 16) : ridx_main_v48 i k = atCol i k :=
  funext fun a => by match a with | ⟨0, _⟩ => rfl | ⟨1, _⟩ => rfl
theorem lidx66 (i : S200000x16.Idx) (k : Fin 16) : lidx_main_v66 i k = atRow i k :=
  funext fun a => by match a with | ⟨0, _⟩ => rfl | ⟨1, _⟩ => rfl
theorem ridx66 (i : S200000x16.Idx) (k : Fin 16) : ridx_main_v66 i k = atCol i k :=
  funext fun a => by match a with | ⟨0, _⟩ => rfl | ⟨1, _⟩ => rfl

/-- The bias repeated over the rows, read in row r at column k, is the vector's entry k. -/
theorem bias45 (i : S200000x16.Idx) (k : Fin 16) :
    idx_main_v44 (idx_main_v45 (atRow i k)) = ix1 (n := 16) ⟨((atBias k) 1).val, ((atBias k) 1).isLt⟩ :=
  funext fun a => by match a with | ⟨0, _⟩ => rfl
theorem bias63 (i : S200000x16.Idx) (k : Fin 16) :
    idx_main_v62 (idx_main_v63 (atRow i k)) = ix1 (n := 16) ⟨((atBias k) 1).val, ((atBias k) 1).isLt⟩ :=
  funext fun a => by match a with | ⟨0, _⟩ => rfl

/-! ## The three layers -/

/-- The first layer's transform: x · W₁. -/
theorem dense_v30 (x0 : (⟨S200000x16, .f32⟩ : BufTy).Contents (Elt Ideal)) (x1 : (⟨S16x16, .f32⟩ : BufTy).Contents (Elt Ideal)) :
    val_main_v30 (F := Ideal) x0 x1 = dense x0 x1 := by
  funext i
  rw [val_main_v30_apply]
  unfold dense
  exact Finset.sum_congr rfl fun k _ => by rw [lidx30, ridx30]

/-- The second layer's transform: relu (first aggregation + b₁) · W₂. -/
theorem reluDense_v48 (x0 : (⟨S200000x16, .f32⟩ : BufTy).Contents (Elt Ideal)) (x1 : (⟨S16x16, .f32⟩ : BufTy).Contents (Elt Ideal)) (x2 : (⟨S16, .f32⟩ : BufTy).Contents (Elt Ideal)) (x3 : (⟨S16x16, .f32⟩ : BufTy).Contents (Elt Ideal)) (x9 : (⟨S2x3200000, .i32⟩ : BufTy).Contents (Elt Ideal)) :
    val_main_v48 (F := Ideal) x0 x1 x2 x3 x9 = reluDense (val_main_v43 (F := Ideal) x0 x1 x9) (biasRow x2) x3 := by
  funext i
  rw [val_main_v48_apply]
  unfold reluDense
  refine Finset.sum_congr rfl fun k _ => ?_
  rw [lidx48, ridx48, val_main_v47_apply, val_main_v46_apply, val_main_v45_apply, val_main_v44_apply,
    val_main_call1_v0_apply, val_main_call1_cst_apply, bias45]
  rfl

/-- The third layer's transform: relu (second aggregation + b₂) · W₃. -/
theorem reluDense_v66 (x0 : (⟨S200000x16, .f32⟩ : BufTy).Contents (Elt Ideal)) (x1 : (⟨S16x16, .f32⟩ : BufTy).Contents (Elt Ideal)) (x2 : (⟨S16, .f32⟩ : BufTy).Contents (Elt Ideal)) (x3 : (⟨S16x16, .f32⟩ : BufTy).Contents (Elt Ideal)) (x4 : (⟨S16, .f32⟩ : BufTy).Contents (Elt Ideal)) (x5 : (⟨S16x16, .f32⟩ : BufTy).Contents (Elt Ideal)) (x9 : (⟨S2x3200000, .i32⟩ : BufTy).Contents (Elt Ideal)) :
    val_main_v66 (F := Ideal) x0 x1 x2 x3 x4 x5 x9 = reluDense (val_main_v61 (F := Ideal) x0 x1 x2 x3 x9) (biasRow x4) x5 := by
  funext i
  rw [val_main_v66_apply]
  unfold reluDense
  refine Finset.sum_congr rfl fun k _ => ?_
  rw [lidx66, ridx66, val_main_v65_apply, val_main_v64_apply, val_main_v63_apply, val_main_v62_apply,
    val_main_call2_v0_apply, val_main_call2_cst_apply, bias63]
  rfl

end Cert.ReferenceIdeal.RefDense

end
-- ==== Proof.Chain1.lean ====
/-
  From the first region to the second region's exit.

  Region 0 writes only its output array, the transform h₁ = x · W₁; every other buffer keeps its contents. The host
  operations that follow gather h₁ at every edge's source, scale by the edge's normalisation and add the rows into the
  edge's target — the first aggregation — and give the bias b₁ a leading unit axis. These are the reference's own
  operations applied to the same values, so the buffers hold the reference's stages. Region 1 then computes
  relu (aggregation + b₁) · W₂ on those arrays, which is the reference's second transform.
-/
import proofs.«136682_j41867341201638_1_alg».proof.Proof.Chain0
import proofs.«136682_j41867341201638_1_alg».proof.Proof.Region0
import proofs.«136682_j41867341201638_1_alg».proof.Proof.Region1
import proofs.«136682_j41867341201638_1_alg».proof.Proof.RefDense
import Idealize.ShloMosaic.Lib.ValueLayout

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo Idealize.ShloMosaic.ValueIdx
open Cert.ReferenceIdeal.ReadP Cert.ReferenceIdeal.RefDense

variable (m : (ℓ : Loc nD τ sig) → Buf (Elt Ideal) ℓ) (ρ : Dev nD → PrngReg)

/-! ## What crosses region 0 and the stretch after it unchanged -/

/-- A buffer that is none of region 0's arrays and that the following stretch does not write holds at region 1's
    entry what it held at region 0's entry. -/
theorem carry5 (c : Dev nD) (b : Ref sig .tc) (hne : ∀ w, Pipeline.arrRef spec0 w ≠ b)
    (hops : ∀ W : Valuation τ sig (Elt Ideal), StableHlo.after hostOps1 W (Proc.devRef .tc b) = W (Proc.devRef .tc b)) :
    W5 (F := Ideal) m ρ c (Proc.devRef .tc b) = W3 m ρ c (Proc.devRef .tc b) :=
  (hops _).trans (W4_of_ne m ρ c b hne)

theorem src_W4 (c : Dev nD) : W4 (F := Ideal) m ρ c (Proc.devRef .tc main_v3) = val_main_v3 (F := Ideal) (a9 m c) :=
  (W4_of_ne m ρ c main_v3 (by decide)).trans (src_W3 m ρ c)
theorem dst_W4 (c : Dev nD) : W4 (F := Ideal) m ρ c (Proc.devRef .tc main_v6) = val_main_v6 (F := Ideal) (a9 m c) :=
  (W4_of_ne m ρ c main_v6 (by decide)).trans (dst_W3 m ρ c)
theorem norm_W4 (c : Dev nD) : W4 (F := Ideal) m ρ c (Proc.devRef .tc main_v29) = val_main_v29 (F := Ideal) (a9 m c) :=
  (W4_of_ne m ρ c main_v29 (by decide)).trans (norm_W3 m ρ c)
theorem arg2_W4 (c : Dev nD) : W4 (F := Ideal) m ρ c (Proc.devRef .tc main_arg2) = a2 m c :=
  (W4_of_ne m ρ c main_arg2 (by decide)).trans (arg2_W3 m ρ c)

theorem src_W5 (c : Dev nD) : W5 (F := Ideal) m ρ c (Proc.devRef .tc main_v3) = val_main_v3 (F := Ideal) (a9 m c) :=
  (carry5 m ρ c main_v3 (by decide) (fun W => by after_results_simp)).trans (src_W3 m ρ c)
theorem dst_W5 (c : Dev nD) : W5 (F := Ideal) m ρ c (Proc.devRef .tc main_v6) = val_main_v6 (F := Ideal) (a9 m c) :=
  (carry5 m ρ c main_v6 (by decide) (fun W => by after_results_simp)).trans (dst_W3 m ρ c)
theorem norm_W5 (c : Dev nD) : W5 (F := Ideal) m ρ c (Proc.devRef .tc main_v29) = val_main_v29 (F := Ideal) (a9 m c) :=
  (carry5 m ρ c main_v29 (by decide) (fun W => by after_results_simp)).trans (norm_W3 m ρ c)
theorem arg3_W5 (c : Dev nD) : W5 (F := Ideal) m ρ c (Proc.devRef .tc main_arg3) = a3 m c :=
  (carry5 m ρ c main_arg3 (by decide) (fun W => by after_results_simp)).trans (arg3_W3 m ρ c)
theorem arg4_W5 (c : Dev nD) : W5 (F := Ideal) m ρ c (Proc.devRef .tc main_arg4) = a4 m c :=
  (carry5 m ρ c main_arg4 (by decide) (fun W => by after_results_simp)).trans (arg4_W3 m ρ c)
theorem arg5_W5 (c : Dev nD) : W5 (F := Ideal) m ρ c (Proc.devRef .tc main_arg5) = a5 m c :=
  (carry5 m ρ c main_arg5 (by decide) (fun W => by after_results_simp)).trans (arg5_W3 m ρ c)
theorem arg6_W5 (c : Dev nD) : W5 (F := Ideal) m ρ c (Proc.devRef .tc main_arg6) = a6 m c :=
  (carry5 m ρ c main_arg6 (by decide) (fun W => by after_results_simp)).trans (arg6_W3 m ρ c)
theorem arg7_W5 (c : Dev nD) : W5 (F := Ideal) m ρ c (Proc.devRef .tc main_arg7) = a7 m c :=
  (carry5 m ρ c main_arg7 (by decide) (fun W => by after_results_simp)).trans (arg7_W3 m ρ c)
theorem arg8_W5 (c : Dev nD) : W5 (F := Ideal) m ρ c (Proc.devRef .tc main_arg8) = a8 m c :=
  (carry5 m ρ c main_arg8 (by decide) (fun W => by after_results_simp)).trans (arg8_W3 m ρ c)
theorem arg10_W5 (c : Dev nD) : W5 (F := Ideal) m ρ c (Proc.devRef .tc main_arg10) = a10 m c :=
  (carry5 m ρ c main_arg10 (by decide) (fun W => by after_results_simp)).trans (arg10_W3 m ρ c)

/-! ## Region 0's output and the first aggregation -/

/-- Region 0 leaves the first transform x · W₁ in its output array. -/
theorem transform1_W4 (c : Dev nD) :
    W4 (F := Ideal) m ρ c (Proc.devRef .tc main_v30) = val_main_v30 (F := Ideal) (a0 m c) (a1 m c) := by
  refine (W4_arr m ρ c 2).trans ?_
  rw [Cert.KernelIdeal.RegionVal.arr0 (V3 m ρ) c]
  show Cert.GcnSpec.dense (W3 m ρ c (Proc.devRef .tc main_arg0)) (W3 m ρ c (Proc.devRef .tc main_arg1)) = _
  rw [arg0_W3, arg1_W3]
  exact (dense_v30 _ _).symm

/-- The first aggregation: the transform gathered along the edges, scaled, and added into the target rows. -/
theorem agg1_W5 (c : Dev nD) :
    W5 (F := Ideal) m ρ c (Proc.devRef .tc main_v43) = val_main_v43 (F := Ideal) (a0 m c) (a1 m c) (a9 m c) := by
  show StableHlo.after hostOps1 (W4 m ρ c) (Proc.devRef .tc main_v43) = _
  after_results_simp
  rw [transform1_W4, src_W4, dst_W4, norm_W4]
  rfl

/-- The first bias as a one-row matrix. -/
theorem bias1_W5 (c : Dev nD) :
    W5 (F := Ideal) m ρ c (Proc.devRef .tc main_v44) = biasRow (a2 m c) := by
  show StableHlo.after hostOps1 (W4 m ρ c) (Proc.devRef .tc main_v44) = _
  after_results_simp
  rw [arg2_W4]
  funext j
  obtain ⟨u, k, rfl⟩ : ∃ (u : Fin 1) (k : Fin 16), j = ix2 u k := ⟨j 0, j 1, eq_ix2 j⟩
  exact shapeCast_a_1a_apply (a2 m c) _ u k

/-! ## Region 1's output -/

/-- Region 1 leaves the second transform relu (aggregation + b₁) · W₂ in its output array. -/
theorem transform2_W6 (c : Dev nD) :
    W6 (F := Ideal) m ρ c (Proc.devRef .tc main_v45)
      = val_main_v48 (F := Ideal) (a0 m c) (a1 m c) (a2 m c) (a3 m c) (a9 m c) := by
  refine (W6_arr m ρ c 3).trans ?_
  rw [Cert.KernelIdeal.RegionVal.arr1 (V5 m ρ) c]
  show Cert.GcnSpec.reluDense (W5 m ρ c (Proc.devRef .tc main_v43)) (W5 m ρ c (Proc.devRef .tc main_v44))
    (W5 m ρ c (Proc.devRef .tc main_arg3)) = _
  rw [agg1_W5, bias1_W5, arg3_W5]
  exact (reluDense_v48 _ _ _ _ _).symm

end Cert.KernelIdeal.Chain

end
-- ==== Proof.Region2.lean ====
/-
  Region 2: the fused dense step after the second aggregation, relu(agg + b) · W.

  The region walks the 200000 rows of the aggregated array in 25 blocks of 8000 rows. At each block the body adds the
  bias row (a 1×16 array, broadcast over the 8000 rows) to the block, clamps every entry below at the value of the
  zero word, and multiplies the result (its change of float format is the identity on exact values) by the whole
  16×16 weight matrix into a zero accumulator; the 8000×16 product is written back. So entry (r, q) of the array the
  region leaves is ∑ₖ max(agg(r, k) + b(0, k), 0) · W(k, q): row r lies in block r / 8000, which reads exactly the rows
  8000·(r/8000) … of agg, the bias and the weights are the same at every block, and a row of a product depends on
  that row of the left factor only.
-/
import proofs.«136682_j41867341201638_1_alg».proof.Proof.Gen.KernelIdeal.Frame
import proofs.«136682_j41867341201638_1_alg».proof.Proof.GcnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionVal

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-- The block offsets of the body's loads and store are all zero. -/
theorem off_zero2 : (![0, 0] : Fin 2 → Nat) = fun _ => 0 := funext fun a => by fin_cases a <;> rfl

/-! ## The matrix unit's product at an entry

The dimension numbers contract axis 1 of the left block with axis 0 of the weights and keep the other two: the left
operand is read at (row of the result, contracted coordinate), the right one at (contracted coordinate, column of
the result). -/

/-- The left operand's row is the result's row. -/
theorem reluLhs_row2 (i : S8000x16.Idx) (κ : dot_S8000x16_S16x16_S8000x16_1_0_0_1_n_n.contr.Idx) :
    (dot_S8000x16_S16x16_S8000x16_1_0_0_1_n_n.lhsIdx i κ 0).val = (i 0).val := by
  unfold DotDims.lhsIdx
  rw [dif_neg (show ¬(0 : Fin S8000x16.rank) ∈ dot_S8000x16_S16x16_S8000x16_1_0_0_1_n_n.lhsBatch by decide),
    dif_pos (show (0 : Fin S8000x16.rank) ∈ dot_S8000x16_S16x16_S8000x16_1_0_0_1_n_n.lhsNonContracting by decide)]
  rfl
/-- The left operand's column is the contracted coordinate. -/
theorem reluLhs_col2 (i : S8000x16.Idx) (κ : dot_S8000x16_S16x16_S8000x16_1_0_0_1_n_n.contr.Idx) :
    (dot_S8000x16_S16x16_S8000x16_1_0_0_1_n_n.lhsIdx i κ 1).val = (κ ⟨0, by decide⟩).val :=
  dot_S8000x16_S16x16_S8000x16_1_0_0_1_n_n.lhsIdx_val_of_single rfl i κ
/-- The right operand's row is the contracted coordinate. -/
theorem reluRhs_row2 (i : S8000x16.Idx) (κ : dot_S8000x16_S16x16_S8000x16_1_0_0_1_n_n.contr.Idx) :
    (dot_S8000x16_S16x16_S8000x16_1_0_0_1_n_n.rhsIdx i κ 0).val = (κ ⟨0, by decide⟩).val :=
  dot_S8000x16_S16x16_S8000x16_1_0_0_1_n_n.rhsIdx_val_of_single rfl i κ
/-- The right operand's column is the result's column. -/
theorem reluRhs_col2 (i : S8000x16.Idx) (κ : dot_S8000x16_S16x16_S8000x16_1_0_0_1_n_n.contr.Idx) :
    (dot_S8000x16_S16x16_S8000x16_1_0_0_1_n_n.rhsIdx i κ 1).val = (i 1).val := by
  unfold DotDims.rhsIdx
  rw [dif_neg (show ¬(1 : Fin S16x16.rank) ∈ dot_S8000x16_S16x16_S8000x16_1_0_0_1_n_n.rhsBatch by decide),
    dif_pos (show (1 : Fin S16x16.rank) ∈ dot_S8000x16_S16x16_S8000x16_1_0_0_1_n_n.rhsNonContracting by decide)]
  rfl

/-- A product of an 8000×16 block with a 16×16 matrix into the zero accumulator, at entry (p, q): the sum over k of
    the block at (p, k) times the matrix at (k, q). -/
theorem matmul_zero_apply2 (a : FVec Ideal S8000x16 .bf16) (w : FVec Ideal S16x16 .bf16) (p : Fin 8000) (q : Fin 16) :
    matmul dot_S8000x16_S16x16_S8000x16_1_0_0_1_n_n none a w (constant (F := Ideal) S8000x16 .f32 0x00000000#32)
        (ix2 (n0 := 8000) (n1 := 16) p q)
      = ∑ k : Fin 16, a (ix2 (n0 := 8000) (n1 := 16) p k) * w (ix2 (n0 := 16) (n1 := 16) k q) := by
  simp only [matmul]
  rw [Ideal.matmul_constant_zero_apply,
    ← Equiv.sum_comp (contrEquiv1 dot_S8000x16_S16x16_S8000x16_1_0_0_1_n_n 16 rfl rfl).symm]
  refine Finset.sum_congr rfl fun k _ => ?_
  have hk := contrEquiv1_symm_val dot_S8000x16_S16x16_S8000x16_1_0_0_1_n_n 16 rfl rfl k
  have el : dot_S8000x16_S16x16_S8000x16_1_0_0_1_n_n.lhsIdx (ix2 (n0 := 8000) (n1 := 16) p q)
      ((contrEquiv1 dot_S8000x16_S16x16_S8000x16_1_0_0_1_n_n 16 rfl rfl).symm k) = ix2 (n0 := 8000) (n1 := 16) p k :=
    funext fun a => Fin.ext (by
      match a with
      | ⟨0, _⟩ => exact reluLhs_row2 _ _
      | ⟨1, _⟩ => exact (reluLhs_col2 _ _).trans hk)
  have er : dot_S8000x16_S16x16_S8000x16_1_0_0_1_n_n.rhsIdx (ix2 (n0 := 8000) (n1 := 16) p q)
      ((contrEquiv1 dot_S8000x16_S16x16_S8000x16_1_0_0_1_n_n 16 rfl rfl).symm k) = ix2 (n0 := 16) (n1 := 16) k q :=
    funext fun a => Fin.ext (by
      match a with
      | ⟨0, _⟩ => exact (reluRhs_row2 _ _).trans hk
      | ⟨1, _⟩ => exact reluRhs_col2 _ _)
  rw [el, er]

/-- The body's stored value at entry (p, q) of the block: the sum over k of the clamped (row block + bias row) at
    (p, k) times the weights at (k, q). The two casts to the same shape are the identity, the broadcast bias at
    (p, k) is the bias row at (0, k), and each change of float format is the identity on the extended reals. -/
theorem blockReluProduct_apply2 (x0 : Vec Ideal S8000x16 .f32) (x1 : Vec Ideal S1x16 .f32) (x2 : Vec Ideal S16x16 .f32)
    (p : Fin 8000) (q : Fin 16) :
    k2_pay1 (F := Ideal) x0 x1 x2 (ix2 (n0 := 8000) (n1 := 16) p q)
      = ∑ k : Fin 16, max (x0 (ix2 (n0 := 8000) (n1 := 16) p k) + x1 (ix2 (n0 := 1) (n1 := 16) 0 k))
          (Ideal.ofBits .f32 0x00000000#32) * x2 (ix2 (n0 := 16) (n1 := 16) k q) := by
  unfold k2_pay1
  refine (matmul_zero_apply2 _ _ p q).trans (Finset.sum_congr rfl fun k _ => ?_)
  show max (shapeCast S8000x16 x0 shapeCasts_S8000x16_S8000x16 (ix2 (n0 := 8000) (n1 := 16) p k)
      + broadcastTo S8000x16 (shapeCast S1x16 x1 shapeCasts_S1x16_S1x16) broadcasts_S1x16_S8000x16 (ix2 (n0 := 8000) (n1 := 16) p k))
      (Ideal.ofBits .f32 0x00000000#32) * x2 (ix2 (n0 := 16) (n1 := 16) k q) = _
  rw [shapeCast_self, shapeCast_self, broadcastTo_1b_ab_apply]

/-! ## From the body's block to entries of the arrays -/

/-- The body's stored value at an entry y of the block, for ANY row block x0, bias x1 and weights x2 that are what the
    arrays A, B and W hold in rows 8000·b … and everywhere: relu(A + B) · W at the entry i of the array in row
    8000·b + (row of y) and y's column. -/
theorem blockReluProduct_eq_reluDense2 (A : Cert.GcnSpec.Rows.Idx → EReal) (B : Cert.GcnSpec.Row1.Idx → EReal)
    (W : Cert.GcnSpec.Sq.Idx → EReal)
    (x0 : Vec Ideal S8000x16 .f32) (x1 : Vec Ideal S1x16 .f32) (x2 : Vec Ideal S16x16 .f32) (b : Nat)
    (h0 : ∀ (y : S8000x16.Idx) (i : S200000x16.Idx), (i 0).val = b * 8000 + (y 0).val → (i 1).val = (y 1).val → x0 y = A i)
    (h1 : ∀ y : S1x16.Idx, x1 y = B y) (h2 : ∀ y : S16x16.Idx, x2 y = W y)
    (y : S8000x16.Idx) (i : S200000x16.Idx) (hi0 : (i 0).val = b * 8000 + (y 0).val) (hi1 : (i 1).val = (y 1).val) :
    k2_pay1 (F := Ideal) x0 x1 x2 y = Cert.GcnSpec.reluDense A B W i := by
  obtain ⟨p, q, rfl⟩ : ∃ (p : Fin 8000) (q : Fin 16), y = ix2 p q := ⟨y 0, y 1, eq_ix2 y⟩
  rw [blockReluProduct_apply2]
  unfold Cert.GcnSpec.reluDense
  refine Finset.sum_congr rfl fun k _ => ?_
  rw [h0 (ix2 (n0 := 8000) (n1 := 16) p k) (Cert.GcnSpec.atRow i k) hi0 rfl, h1, h2]
  exact congrArg (fun z => max (A (Cert.GcnSpec.atRow i k) + B (Cert.GcnSpec.atBias k)) (Ideal.ofBits .f32 0x00000000#32) * W z)
    (funext fun a => Fin.ext (by
      match a with
      | ⟨0, _⟩ => rfl
      | ⟨1, _⟩ => exact hi1.symm))

variable (V : (c : Dev nD) → (b : Ref sig .tc) → Buf (Elt Ideal) ((c : Thread nD τ).loc b))

/-- The printed index maps over the 25 points: the row blocks of the aggregated array and of the result move with the
    point, the bias row's and the weights' one block stay. -/
theorem blockIndex2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The block of the aggregated array at point t is its rows 8000·t … 8000·t + 7999. -/
theorem rowBlock2 (c : Dev nD) (t : Fin cfg2.N) (y : S8000x16.Idx) (i : S200000x16.Idx)
    (hi0 : (i 0).val = t.val * 8000 + (y 0).val) (hi1 : (i 1).val = (y 1).val) :
    (iblk2 (F := Ideal) V c 0 t : Vec Ideal S8000x16 .f32) y = (V c main_v58 : S200000x16.Idx → Elt Ideal .f32) i := by
  obtain ⟨e0, e1, -⟩ := blockIndex2 t
  unfold iblk2
  rw [View.read_apply]
  show V c main_v58 _ = V c main_v58 _
  refine congrArg (V c main_v58) (funext fun a => Fin.ext ?_)
  match a with
  | ⟨0, _⟩ => show win2_0.index t (0 : Fin 2) * 8000 + 1 * (y 0).val = (i 0).val; rw [e0, hi0]; omega
  | ⟨1, _⟩ => show win2_0.index t (1 : Fin 2) * 16 + 1 * (y 1).val = (i 1).val; rw [e1, hi1]; omega

/-- The block of the bias at every point is the whole 1×16 array. -/
theorem biasBlock2 (c : Dev nD) (t : Fin cfg2.N) (y : S1x16.Idx) :
    (iblk2 (F := Ideal) V c 1 t : Vec Ideal S1x16 .f32) y = (V c main_v59 : S1x16.Idx → Elt Ideal .f32) y := by
  obtain ⟨-, -, e0, e1, -⟩ := blockIndex2 t
  unfold iblk2
  rw [View.read_apply]
  show V c main_v59 _ = V c main_v59 _
  refine congrArg (V c main_v59) (funext fun a => Fin.ext ?_)
  match a with
  | ⟨0, _⟩ => show win2_1.index t (0 : Fin 2) * 1 + 1 * (y 0).val = (y 0).val; rw [e0]; omega
  | ⟨1, _⟩ => show win2_1.index t (1 : Fin 2) * 16 + 1 * (y 1).val = (y 1).val; rw [e1]; omega

/-- The block of the weights at every point is the whole 16×16 array. -/
theorem weightBlock2 (c : Dev nD) (t : Fin cfg2.N) (y : S16x16.Idx) :
    (iblk2 (F := Ideal) V c 2 t : Vec Ideal S16x16 .f32) y = (V c main_arg5 : S16x16.Idx → Elt Ideal .f32) y := by
  obtain ⟨-, -, -, -, e0, e1, -⟩ := blockIndex2 t
  unfold iblk2
  rw [View.read_apply]
  show V c main_arg5 _ = V c main_arg5 _
  refine congrArg (V c main_arg5) (funext fun a => Fin.ext ?_)
  match a with
  | ⟨0, _⟩ => show win2_2.index t (0 : Fin 2) * 16 + 1 * (y 0).val = (y 0).val; rw [e0]; omega
  | ⟨1, _⟩ => show win2_2.index t (1 : Fin 2) * 16 + 1 * (y 1).val = (y 1).val; rw [e1]; omega

/-- What point t writes back is block t of relu(agg + b) · W of the arrays as the region finds them. -/
theorem flushed_eq2 (c : Dev nD) (t : Fin cfg2.N) :
    (dat2 (F := Ideal) V c).flushed 3 t
      = ((cfg2.win 3).blk t).view.read (Elt Ideal) (Cert.GcnSpec.reluDense (V c main_v58) (V c main_v59) (V c main_arg5)) := by
  show (cfg2.win 3).cut (grid2.coords t) ((dat2 V c).after 3 t) = _
  rw [after2_3]
  unfold out2_3
  rw [View.canon_unit_zero off_zero2]
  simp only [View.ld_unit_zero (S := S8000x16) off_zero2, View.ld_unit_zero (S := S1x16) off_zero2,
    View.ld_unit_zero (S := S16x16) off_zero2]
  obtain ⟨-, -, -, -, -, -, e0, e1⟩ := blockIndex2 t
  funext j
  rw [View.read_apply]
  refine blockReluProduct_eq_reluDense2 (V c main_v58) (V c main_v59) (V c main_arg5)
    (iblk2 V c 0 t) (iblk2 V c 1 t) (iblk2 V c 2 t) t.val
    (rowBlock2 V c t) (biasBlock2 V c t) (weightBlock2 V c t) _ _ ?_ ?_
  · show win2_3.index t (0 : Fin 2) * 8000 + 1 * (j 0).val = t.val * 8000 + (j 0).val; rw [e0]; omega
  · show win2_3.index t (1 : Fin 2) * 16 + 1 * (j 1).val = (j 1).val; rw [e1]; omega

/-- An index of the result array is in point t's block iff each coordinate is in the block's range on its axis. -/
theorem mem_blk2 (t : Fin cfg2.N) (i : S200000x16.Idx) :
    i ∈ ((cfg2.win 3).blk t).view.set ↔ ∀ a : Fin 2, win2_3.index t a * S8000x16.size a ≤ (i a).val
      ∧ (i a).val < win2_3.index t a * S8000x16.size a + S8000x16.size a := by
  show i ∈ ((View.whole main_v60).slice (win2_3.rect t)).set ↔ _
  rw [View.set_slice_whole, Rect.mem_set_unit]
  exact Iff.rfl

/-- Row r of the result lies in the block of point r / 8000, and every point writes back: the 25 blocks cover the array. -/
theorem cover2 (i : S200000x16.Idx) :
    ∃ t : Fin cfg2.N, (cfg2.win 3).flush t = true ∧ i ∈ ((cfg2.win 3).blk t).view.set := by
  have hN : cfg2.N = 25 := N_2
  have hi0 : (i 0).val < 200000 := (i 0).isLt
  have hi1 : (i 1).val < 16 := (i 1).isLt
  refine ⟨⟨(i 0).val / 8000, by rw [hN]; omega⟩, flush2_3 _, ?_⟩
  rw [mem_blk2]
  obtain ⟨-, -, -, -, -, -, e0, e1⟩ := blockIndex2 ⟨(i 0).val / 8000, by rw [hN]; omega⟩
  intro a
  match a with
  | ⟨0, _⟩ =>
    show win2_3.index _ (0 : Fin 2) * 8000 ≤ (i 0).val ∧ (i 0).val < win2_3.index _ (0 : Fin 2) * 8000 + 8000
    rw [e0]; show (i 0).val / 8000 * 8000 ≤ (i 0).val ∧ (i 0).val < (i 0).val / 8000 * 8000 + 8000; omega
  | ⟨1, _⟩ =>
    show win2_3.index _ (1 : Fin 2) * 16 ≤ (i 1).val ∧ (i 1).val < win2_3.index _ (1 : Fin 2) * 16 + 16
    rw [e1]; omega

/-- Region 2: the array the 25 row blocks leave is relu(agg + b) · W of the entry arrays. -/
theorem arr2 (c : Dev nD) :
    (dat2 (F := Ideal) V c).arrAt 3 cfg2.N
      = Cert.GcnSpec.reluDense (V c main_v58) (V c main_v59) (V c main_arg5) :=
  (dat2 (F := Ideal) V c).arrAt_eq_of_cover 3 (Cert.GcnSpec.reluDense (V c main_v58) (V c main_v59) (V c main_arg5))
    (fun t _ => flushed_eq2 V c t) cover2

end Cert.KernelIdeal.RegionVal

end
-- ==== Proof.Chain2.lean ====
/-
  From the second region's exit to the third region's exit.

  Region 1 writes only its output array, the second transform h₂. The host operations that follow aggregate h₂ along
  the edges exactly as the first transform was aggregated, and give the bias b₂ a leading unit axis; the buffers hold
  the reference's stages of the same values. Region 2 runs the same body as region 1 on them:
  relu (aggregation + b₂) · W₃, the reference's third transform.
-/
import proofs.«136682_j41867341201638_1_alg».proof.Proof.Chain1
import proofs.«136682_j41867341201638_1_alg».proof.Proof.Region2

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo Idealize.ShloMosaic.ValueIdx
open Cert.ReferenceIdeal.ReadP Cert.ReferenceIdeal.RefDense

variable (m : (ℓ : Loc nD τ sig) → Buf (Elt Ideal) ℓ) (ρ : Dev nD → PrngReg)

/-! ## What crosses region 1 and the stretch after it unchanged -/

/-- A buffer that is none of region 1's arrays and that the following stretch does not write holds at region 2's
    entry what it held at region 1's entry. -/
theorem carry7 (c : Dev nD) (b : Ref sig .tc) (hne : ∀ w, Pipeline.arrRef spec1 w ≠ b)
    (hops : ∀ W : Valuation τ sig (Elt Ideal), StableHlo.after hostOps2 W (Proc.devRef .tc b) = W (Proc.devRef .tc b)) :
    W7 (F := Ideal) m ρ c (Proc.devRef .tc b) = W5 m ρ c (Proc.devRef .tc b) :=
  (hops _).trans (W6_of_ne m ρ c b hne)

theorem src_W6 (c : Dev nD) : W6 (F := Ideal) m ρ c (Proc.devRef .tc main_v3) = val_main_v3 (F := Ideal) (a9 m c) :=
  (W6_of_ne m ρ c main_v3 (by decide)).trans (src_W5 m ρ c)
theorem dst_W6 (c : Dev nD) : W6 (F := Ideal) m ρ c (Proc.devRef .tc main_v6) = val_main_v6 (F := Ideal) (a9 m c) :=
  (W6_of_ne m ρ c main_v6 (by decide)).trans (dst_W5 m ρ c)
theorem norm_W6 (c : Dev nD) : W6 (F := Ideal) m ρ c (Proc.devRef .tc main_v29) = val_main_v29 (F := Ideal) (a9 m c) :=
  (W6_of_ne m ρ c main_v29 (by decide)).trans (norm_W5 m ρ c)
theorem arg4_W6 (c : Dev nD) : W6 (F := Ideal) m ρ c (Proc.devRef .tc main_arg4) = a4 m c :=
  (W6_of_ne m ρ c main_arg4 (by decide)).trans (arg4_W5 m ρ c)

theorem src_W7 (c : Dev nD) : W7 (F := Ideal) m ρ c (Proc.devRef .tc main_v3) = val_main_v3 (F := Ideal) (a9 m c) :=
  (carry7 m ρ c main_v3 (by decide) (fun W => by after_results_simp)).trans (src_W5 m ρ c)
theorem dst_W7 (c : Dev nD) : W7 (F := Ideal) m ρ c (Proc.devRef .tc main_v6) = val_main_v6 (F := Ideal) (a9 m c) :=
  (carry7 m ρ c main_v6 (by decide) (fun W => by after_results_simp)).trans (dst_W5 m ρ c)
theorem norm_W7 (c : Dev nD) : W7 (F := Ideal) m ρ c (Proc.devRef .tc main_v29) = val_main_v29 (F := Ideal) (a9 m c) :=
  (carry7 m ρ c main_v29 (by decide) (fun W => by after_results_simp)).trans (norm_W5 m ρ c)
theorem arg5_W7 (c : Dev nD) : W7 (F := Ideal) m ρ c (Proc.devRef .tc main_arg5) = a5 m c :=
  (carry7 m ρ c main_arg5 (by decide) (fun W => by after_results_simp)).trans (arg5_W5 m ρ c)
theorem arg6_W7 (c : Dev nD) : W7 (F := Ideal) m ρ c (Proc.devRef .tc main_arg6) = a6 m c :=
  (carry7 m ρ c main_arg6 (by decide) (fun W => by after_results_simp)).trans (arg6_W5 m ρ c)
theorem arg7_W7 (c : Dev nD) : W7 (F := Ideal) m ρ c (Proc.devRef .tc main_arg7) = a7 m c :=
  (carry7 m ρ c main_arg7 (by decide) (fun W => by after_results_simp)).trans (arg7_W5 m ρ c)
theorem arg8_W7 (c : Dev nD) : W7 (F := Ideal) m ρ c (Proc.devRef .tc main_arg8) = a8 m c :=
  (carry7 m ρ c main_arg8 (by decide) (fun W => by after_results_simp)).trans (arg8_W5 m ρ c)
theorem arg10_W7 (c : Dev nD) : W7 (F := Ideal) m ρ c (Proc.devRef .tc main_arg10) = a10 m c :=
  (carry7 m ρ c main_arg10 (by decide) (fun W => by after_results_simp)).trans (arg10_W5 m ρ c)

/-! ## The second aggregation and region 2's output -/

/-- The second aggregation: the second transform gathered along the edges, scaled, and added into the target rows. -/
theorem agg2_W7 (c : Dev nD) :
    W7 (F := Ideal) m ρ c (Proc.devRef .tc main_v58)
      = val_main_v61 (F := Ideal) (a0 m c) (a1 m c) (a2 m c) (a3 m c) (a9 m c) := by
  show StableHlo.after hostOps2 (W6 m ρ c) (Proc.devRef .tc main_v58) = _
  after_results_simp
  rw [transform2_W6, src_W6, dst_W6, norm_W6]
  rfl

/-- The second bias as a one-row matrix. -/
theorem bias2_W7 (c : Dev nD) :
    W7 (F := Ideal) m ρ c (Proc.devRef .tc main_v59) = biasRow (a4 m c) := by
  show StableHlo.after hostOps2 (W6 m ρ c) (Proc.devRef .tc main_v59) = _
  after_results_simp
  rw [arg4_W6]
  funext j
  obtain ⟨u, k, rfl⟩ : ∃ (u : Fin 1) (k : Fin 16), j = ix2 u k := ⟨j 0, j 1, eq_ix2 j⟩
  exact shapeCast_a_1a_apply (a4 m c) _ u k

/-- Region 2 leaves the third transform relu (aggregation + b₂) · W₃ in its output array. -/
theorem transform3_W8 (c : Dev nD) :
    W8 (F := Ideal) m ρ c (Proc.devRef .tc main_v60)
      = val_main_v66 (F := Ideal) (a0 m c) (a1 m c) (a2 m c) (a3 m c) (a4 m c) (a5 m c) (a9 m c) := by
  refine (W8_arr m ρ c 3).trans ?_
  rw [Cert.KernelIdeal.RegionVal.arr2 (V7 m ρ) c]
  show Cert.GcnSpec.reluDense (W7 m ρ c (Proc.devRef .tc main_v58)) (W7 m ρ c (Proc.devRef .tc main_v59))
    (W7 m ρ c (Proc.devRef .tc main_arg5)) = _
  rw [agg2_W7, bias2_W7, arg5_W7]
  exact (reluDense_v66 _ _ _ _ _ _ _).symm

end Cert.KernelIdeal.Chain

end
-- ==== Proof.HeadSpec.lean ====
/-
  The classifier head of the network, as a function of whole arrays, entry by entry.

  From the pooled features P (256 graphs, 16 features each), the weights w (16 × 4) and the bias b (4 entries)
  the head first forms the scores  L(p, q) = ∑ₖ P(p, k) · w(k, q) + b(q),  and then takes the logarithm of the
  softmax along each row of four scores, in the numerically shifted form

      (L(p, q) − M(p)) − log ∑ⱼ exp (L(p, j) − M(p)),      M(p) = the maximum of L(p, ·).

  The maximum is the fold of `max` over the row, started from the value of the word 0xFF800000 (−∞ in binary32).
  Everything is stated on the extended reals, with `Ideal.exp` and `Ideal.log` left closed and the grouping of the
  two subtractions exactly as written: a row of the result depends on the same row of the scores only, and nothing
  here is re-associated, so no finiteness is ever needed.

  One law of the order is recorded for later use: joining the fold's starting value once more onto the fold changes
  nothing (`max_rowMax`), because a fold of `max` is never below the value it starts from.
-/
import Idealize.ShloMosaic.PureOps.Ideal
import Idealize.ShloMosaic.Lib.ValueIdx
import Mathlib.Data.Finset.Fold

noncomputable section

namespace Cert.GcnHead

open Idealize.ShloMosaic Idealize.ShloMosaic.ValueIdx
open scoped BigOperators

/-- The pooled features: one row of 16 per graph. -/
abbrev Pooled : Shape := ⟨2, ![256, 16]⟩
/-- The head's weights. -/
abbrev Weights : Shape := ⟨2, ![16, 4]⟩
/-- The scores, and the result: one row of 4 per graph. -/
abbrev Scores : Shape := ⟨2, ![256, 4]⟩

/-- The value every row maximum is folded from: the word of −∞. -/
abbrev floor : EReal := Ideal.ofBits .f32 0xFF800000#32

/-- The maximum of a row of four scores, folded from `floor`. -/
def rowMax (L : Fin 4 → EReal) : EReal := (Finset.univ : Finset (Fin 4)).fold max floor L

/-- The logarithm of the softmax of a row of four scores at column `q`, shifted by the row maximum. -/
def logSoftmaxRow (L : Fin 4 → EReal) (q : Fin 4) : EReal :=
  (L q - rowMax L) - Ideal.log (∑ j : Fin 4, Ideal.exp (L j - rowMax L))

/-- Score (p, q): row p of the pooled features against column q of the weights, plus the bias of column q. -/
def score (P : Pooled.Idx → EReal) (w : Weights.Idx → EReal) (b : Fin 4 → EReal) (p : Fin 256) (q : Fin 4) : EReal :=
  (∑ k : Fin 16, P (ix2 p k) * w (ix2 k q)) + b q

/-- The head: the log-softmax of each row of scores. -/
def head (P : Pooled.Idx → EReal) (w : Weights.Idx → EReal) (b : Fin 4 → EReal) : Scores.Idx → EReal :=
  fun i => logSoftmaxRow (score P w b ⟨(i 0).val, (i 0).isLt⟩) ⟨(i 1).val, (i 1).isLt⟩

/-- The head at entry (p, q). -/
theorem head_ix2 (P : Pooled.Idx → EReal) (w : Weights.Idx → EReal) (b : Fin 4 → EReal) (p : Fin 256) (q : Fin 4) :
    head P w b (ix2 p q) = logSoftmaxRow (score P w b p) q := rfl

/-- A fold of `max` is at least the value it starts from, so joining that value on once more changes nothing. -/
theorem max_rowMax (L : Fin 4 → EReal) : max floor (rowMax L) = rowMax L :=
  max_eq_right ((Finset.le_fold_max floor).mpr (Or.inl le_rfl))

end Cert.GcnHead

end
-- ==== Proof.Region3.lean ====
/-
  The last region of the network: the classifier head on the 256 pooled rows.

  The region has ONE grid point and each of its four windows holds its whole array, so the three input blocks are the
  arrays themselves and the one output block covers the whole result. What the body stores is, entry by entry,

      (L(p, q) − M(p)) − log ∑ⱼ exp (L(p, j) − M(p)),     L(p, q) = ∑ₖ P(p, k) · w(k, q) + b(q),   M(p) = maxⱼ L(p, j),

  with the maximum folded from the value of the word of −∞: this is `Cert.GcnHead.head` of the three arrays. The body
  keeps every row statistic as a column — a 256-vector viewed as 256 × 1 and then repeated across the four columns —, so
  the reading goes through two small layout facts (a vector as a one-column matrix; one column repeated across a row),
  the row maximum as a fold over the four columns, the row sum as a sum over them, and the product as a sum over the
  sixteen features. Nothing is re-associated and neither `exp` nor `log` is opened.
-/
import proofs.«136682_j41867341201638_1_alg».proof.Proof.Gen.KernelIdeal.Frame
import proofs.«136682_j41867341201638_1_alg».proof.Proof.HeadSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionVal

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-! ## Two layout facts: a row statistic kept as a column -/

/-- A vector of `a` entries viewed as an `a × 1` matrix reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column repeated across `b` columns reads, at `(i, j)`, the column at `(i, 0)`. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-! ## The product, read at an entry -/

/-- Output row `p` reads row `p` of the left factor … -/
theorem lhs_row (i : S256x4.Idx) (k : dot_S256x16_S16x4_S256x4_1_0_0_1_n_n.contr.Idx) :
    (dot_S256x16_S16x4_S256x4_1_0_0_1_n_n.lhsIdx i k 0).val = (i 0).val := by
  unfold DotDims.lhsIdx
  rw [dif_neg (show ¬(0 : Fin S256x16.rank) ∈ dot_S256x16_S16x4_S256x4_1_0_0_1_n_n.lhsBatch by decide),
    dif_pos (show (0 : Fin S256x16.rank) ∈ dot_S256x16_S16x4_S256x4_1_0_0_1_n_n.lhsNonContracting by decide)]
  rfl

/-- … and output column `q` reads column `q` of the right factor. -/
theorem rhs_col (i : S256x4.Idx) (k : dot_S256x16_S16x4_S256x4_1_0_0_1_n_n.contr.Idx) :
    (dot_S256x16_S16x4_S256x4_1_0_0_1_n_n.rhsIdx i k 1).val = (i 1).val := by
  unfold DotDims.rhsIdx
  rw [dif_neg (show ¬(1 : Fin S16x4.rank) ∈ dot_S256x16_S16x4_S256x4_1_0_0_1_n_n.rhsBatch by decide),
    dif_pos (show (1 : Fin S16x4.rank) ∈ dot_S256x16_S16x4_S256x4_1_0_0_1_n_n.rhsNonContracting by decide)]
  rfl

/-- The 256 × 16 by 16 × 4 product into a zero accumulator, at entry (p, q): the sum over the sixteen features. -/
theorem product_apply (a : FVec Ideal S256x16 .f32) (w : FVec Ideal S16x4 .f32) (p : Fin 256) (q : Fin 4) :
    matmul dot_S256x16_S16x4_S256x4_1_0_0_1_n_n (some .fp32) a w (constant S256x4 .f32 0x00000000#32) (ix2 p q)
      = ∑ k : Fin 16, a (ix2 p k) * w (ix2 k q) := by
  simp only [matmul]
  rw [Ideal.matmul_constant_zero_apply,
    ← Equiv.sum_comp (contrEquiv1 dot_S256x16_S16x4_S256x4_1_0_0_1_n_n 16 rfl rfl).symm]
  refine Finset.sum_congr rfl fun k _ => ?_
  have hk := contrEquiv1_symm_val dot_S256x16_S16x4_S256x4_1_0_0_1_n_n 16 rfl rfl k
  have el : dot_S256x16_S16x4_S256x4_1_0_0_1_n_n.lhsIdx (ix2 p q)
      ((contrEquiv1 dot_S256x16_S16x4_S256x4_1_0_0_1_n_n 16 rfl rfl).symm k) = ix2 p k := funext fun ax => Fin.ext (by
    match ax with
    | ⟨0, _⟩ => exact lhs_row _ _
    | ⟨1, _⟩ => exact (dot_S256x16_S16x4_S256x4_1_0_0_1_n_n.lhsIdx_val_of_single rfl _ _).trans hk)
  have er : dot_S256x16_S16x4_S256x4_1_0_0_1_n_n.rhsIdx (ix2 p q)
      ((contrEquiv1 dot_S256x16_S16x4_S256x4_1_0_0_1_n_n 16 rfl rfl).symm k) = ix2 k q := funext fun ax => Fin.ext (by
    match ax with
    | ⟨0, _⟩ => exact (dot_S256x16_S16x4_S256x4_1_0_0_1_n_n.rhsIdx_val_of_single rfl _ _).trans hk
    | ⟨1, _⟩ => exact rhs_col _ _)
  rw [el, er]

/-! ## The body's arithmetic in two steps: the scores, then the row-wise normalisation -/

/-- The scores as the body forms them: the product into a zero accumulator plus the bias row repeated over the rows. -/
def scoresOf (x0 : FVec Ideal S256x16 .f32) (x1 : FVec Ideal S16x4 .f32) (x2 : FVec Ideal S1x4 .f32) : FVec Ideal S256x4 .f32 :=
  addf (matmul dot_S256x16_S16x4_S256x4_1_0_0_1_n_n (some .fp32) (shapeCast S256x16 x0 shapeCasts_S256x16_S256x16) x1
      (constant S256x4 .f32 0x00000000#32))
    (broadcastTo S256x4 (shapeCast S1x4 x2 shapeCasts_S1x4_S1x4) broadcasts_S1x4_S256x4)

/-- Each row's maximum, kept as a column and repeated across the four columns. -/
def rowMaxCol (z : FVec Ideal S256x4 .f32) : FVec Ideal S256x4 .f32 :=
  broadcastTo S256x4 (shapeCast S256x1
    (multiReduction .maximumf [1] S256 z 0xFF800000#32 reduces_S256x4_S256 (.inl rfl) rfl) shapeCasts_S256_S256x1)
    broadcasts_S256x1_S256x4

/-- The logarithm of each row's sum, kept as a column and repeated across the four columns. -/
def logRowSumCol (e : FVec Ideal S256x4 .f32) : FVec Ideal S256x4 .f32 :=
  broadcastTo S256x4 (log (shapeCast S256x1
    (multiReduction .add [1] S256 e 0x00000000#32 reduces_S256x4_S256 (.inl rfl) rfl) shapeCasts_S256_S256x1))
    broadcasts_S256x1_S256x4

/-- The normalisation of the scores: shift each row by its maximum, then subtract the logarithm of the row sum of the
    exponentials of the shifted row. -/
def normalize (z : FVec Ideal S256x4 .f32) : FVec Ideal S256x4 .f32 :=
  subf (subf z (rowMaxCol z)) (logRowSumCol (exp (subf z (rowMaxCol z))))

/-- What the body stores is the normalisation of the scores. -/
theorem pay_eq (x0 : FVec Ideal S256x16 .f32) (x1 : FVec Ideal S16x4 .f32) (x2 : FVec Ideal S1x4 .f32) :
    k3_pay1 (F := Ideal) x0 x1 x2 = normalize (scoresOf x0 x1 x2) := rfl

/-- The index of the scores that row index `p` and column `k` name, as the reductions along the columns insert it. -/
theorem lift_col (p : Fin 256) (k : Fin 4) : reduces_S256x4_S256.lift (ix1 p) k = ix2 p k :=
  funext fun ax => Fin.ext (by match ax with | ⟨0, _⟩ => rfl | ⟨1, _⟩ => rfl)

/-- Score (p, q) is the specification's. -/
theorem scoresOf_apply (x0 : FVec Ideal S256x16 .f32) (x1 : FVec Ideal S16x4 .f32) (x2 : FVec Ideal S1x4 .f32)
    (p : Fin 256) (q : Fin 4) :
    scoresOf x0 x1 x2 (ix2 p q) = Cert.GcnHead.score x0 x1 (fun j => x2 (ix2 (0 : Fin 1) j)) p q := by
  unfold scoresOf Cert.GcnHead.score
  rw [shapeCast_self, shapeCast_self, addf_apply, product_apply, broadcastTo_1b_ab_apply]

/-- The repeated row maximum at (p, j) is the fold of `max` over row p, whatever the column j. -/
theorem rowMaxCol_apply (z : FVec Ideal S256x4 .f32) (p : Fin 256) (j : Fin 4) :
    rowMaxCol z (ix2 p j) = Cert.GcnHead.rowMax (fun k => z (ix2 p k)) := by
  unfold rowMaxCol Cert.GcnHead.rowMax
  rw [broadcastTo_a1_ab_apply, shapeCast_a_a1_apply]
  refine (Ideal.multiReduction_maximumf_single z _ reduces_S256x4_S256 (.inl rfl) rfl (ix1 p)).trans ?_
  have hz : (z ∘ reduces_S256x4_S256.lift (ix1 p)) = fun k : Fin 4 => z (ix2 p k) :=
    funext fun k => congrArg z (lift_col p k)
  rw [hz]
  rfl

/-- The repeated logarithm of the row sum at (p, q) is the logarithm of the sum over row p. -/
theorem logRowSumCol_apply (e : FVec Ideal S256x4 .f32) (p : Fin 256) (q : Fin 4) :
    logRowSumCol e (ix2 p q) = Ideal.log (∑ j : Fin 4, e (ix2 p j)) := by
  unfold logRowSumCol
  rw [broadcastTo_a1_ab_apply]
  show Ideal.log (shapeCast S256x1 _ shapeCasts_S256_S256x1 (ix2 p (0 : Fin 1))) = _
  rw [shapeCast_a_a1_apply]
  refine congrArg Ideal.log ?_
  refine (Ideal.multiReduction_add_single e _ reduces_S256x4_S256 (.inl rfl) rfl (ix1 p)).trans ?_
  exact Finset.sum_congr rfl fun k _ => congrArg e (lift_col p k)

/-- The normalisation at (p, q) is the log-softmax of row p at column q. -/
theorem normalize_apply (z : FVec Ideal S256x4 .f32) (p : Fin 256) (q : Fin 4) :
    normalize z (ix2 p q) = Cert.GcnHead.logSoftmaxRow (fun k => z (ix2 p k)) q := by
  unfold normalize Cert.GcnHead.logSoftmaxRow
  rw [subf_apply, subf_apply, logRowSumCol_apply, rowMaxCol_apply]
  refine congrArg (fun s => (z (ix2 p q) - Cert.GcnHead.rowMax (fun k => z (ix2 p k))) - Ideal.log s) ?_
  refine Finset.sum_congr rfl fun j _ => ?_
  show Ideal.exp (z (ix2 p j) - rowMaxCol z (ix2 p j)) = _
  rw [rowMaxCol_apply]

/-- WHAT THE BODY STORES, as one function of the three blocks it loads: the head of them. -/
theorem pay_read (x0 : FVec Ideal S256x16 .f32) (x1 : FVec Ideal S16x4 .f32) (x2 : FVec Ideal S1x4 .f32) :
    k3_pay1 (F := Ideal) x0 x1 x2 = Cert.GcnHead.head x0 x1 (fun j => x2 (ix2 (0 : Fin 1) j)) := by
  funext i
  obtain ⟨p, q, rfl⟩ : ∃ (p : Fin 256) (q : Fin 4), i = ix2 p q := ⟨i 0, i 1, eq_ix2 i⟩
  rw [pay_eq, normalize_apply, Cert.GcnHead.head_ix2]
  exact congrArg (fun L => Cert.GcnHead.logSoftmaxRow L q) (funext fun j => scoresOf_apply x0 x1 x2 p j)

/-! ## From the one block to the array

The grid has one point and every window's block index there is zero on both axes, so a block's entry (r, s) is the
array's entry (r, s): each input block is its array, and the output block, written back, covers the whole result. -/

variable (V : (c : Dev nD) → (b : Ref sig .tc) → Buf (Elt Ideal) ((c : Thread nD τ).loc b))

/-- The zero offsets of a rectangle that starts at the corner. -/
theorem corner : (![0, 0] : Fin 2 → Nat) = fun _ => 0 := funext fun a => by fin_cases a <;> rfl

/-- The printed index maps, decided at the grid's one point: every window sits at block (0, 0). -/
theorem block_index_zero : ∀ t : Fin cfg3.N, win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0 :=
  (by decide +kernel : ∀ t : Fin grid3.N, _)

/-- The first window's block is the array of pooled rows, … -/
theorem pooled_block (c : Dev nD) (t : Fin cfg3.N) : iblk3 V c 0 t = V c main_v88 := by
  obtain ⟨e0, e1, -⟩ := block_index_zero t
  funext y
  show V c main_v88 (((cfg3.win 0).blk t).view.emb y) = V c main_v88 y
  refine congrArg _ (funext fun a => Fin.ext ?_)
  match a with
  | ⟨0, _⟩ => show win3_0.index t (0 : Fin 2) * 256 + 1 * (y 0).val = (y 0).val; omega
  | ⟨1, _⟩ => show win3_0.index t (1 : Fin 2) * 16 + 1 * (y 1).val = (y 1).val; omega

/-- … the second window's block is the weights, … -/
theorem weights_block (c : Dev nD) (t : Fin cfg3.N) : iblk3 V c 1 t = V c main_arg7 := by
  obtain ⟨-, -, e0, e1, -⟩ := block_index_zero t
  funext y
  show V c main_arg7 (((cfg3.win 1).blk t).view.emb y) = V c main_arg7 y
  refine congrArg _ (funext fun a => Fin.ext ?_)
  match a with
  | ⟨0, _⟩ => show win3_1.index t (0 : Fin 2) * 16 + 1 * (y 0).val = (y 0).val; omega
  | ⟨1, _⟩ => show win3_1.index t (1 : Fin 2) * 4 + 1 * (y 1).val = (y 1).val; omega

/-- … and the third window's block is the bias row. -/
theorem bias_block (c : Dev nD) (t : Fin cfg3.N) : iblk3 V c 2 t = V c main_v89 := by
  obtain ⟨-, -, -, -, e0, e1, -⟩ := block_index_zero t
  funext y
  show V c main_v89 (((cfg3.win 2).blk t).view.emb y) = V c main_v89 y
  refine congrArg _ (funext fun a => Fin.ext ?_)
  match a with
  | ⟨0, _⟩ => show win3_2.index t (0 : Fin 2) * 1 + 1 * (y 0).val = (y 0).val; omega
  | ⟨1, _⟩ => show win3_2.index t (1 : Fin 2) * 4 + 1 * (y 1).val = (y 1).val; omega

/-- WHAT THE POINT WRITES BACK is the (one, whole) block of the head of the three arrays as the region finds them. -/
theorem flushed3_eq (c : Dev nD) (t : Fin cfg3.N) :
    (dat3 (F := Ideal) V c).flushed 3 t = ((cfg3.win 3).blk t).view.read (Elt Ideal)
      (Cert.GcnHead.head (V c main_v88) (V c main_arg7) (fun q => V c main_v89 (ix2 (n0 := 1) (n1 := 4) 0 q))) := by
  show (cfg3.win 3).cut (grid3.coords t) ((dat3 (F := Ideal) V c).after 3 t) = _
  rw [after3_3]
  unfold out3_3
  rw [View.canon_unit_zero corner]
  simp only [View.ld_unit_zero (S := S256x16) corner, View.ld_unit_zero (S := S16x4) corner, View.ld_unit_zero (S := S1x4) corner]
  rw [pooled_block V c t, weights_block V c t, bias_block V c t, pay_read (V c main_v88) (V c main_arg7) (V c main_v89)]
  generalize Cert.GcnHead.head (V c main_v88) (V c main_arg7) (fun q => V c main_v89 (ix2 (n0 := 1) (n1 := 4) 0 q)) = G
  obtain ⟨-, -, -, -, -, -, e0, e1⟩ := block_index_zero t
  funext j
  show G j = G (((cfg3.win 3).blk t).view.emb j)
  refine congrArg G (funext fun a => Fin.ext ?_)
  match a with
  | ⟨0, _⟩ => show (j 0).val = win3_3.index t (0 : Fin 2) * 256 + 1 * (j 0).val; omega
  | ⟨1, _⟩ => show (j 1).val = win3_3.index t (1 : Fin 2) * 4 + 1 * (j 1).val; omega

/-- An index of the result is in the point's block iff each coordinate is in the block's range on its axis. -/
theorem mem_blk3 (t : Fin cfg3.N) (i : S256x4.Idx) :
    i ∈ ((cfg3.win 3).blk t).view.set ↔ ∀ a : Fin 2, win3_3.index t a * S256x4.size a ≤ (i a).val ∧ (i a).val < win3_3.index t a * S256x4.size a + S256x4.size a := by
  show i ∈ ((View.whole main_v90).slice (win3_3.rect t)).set ↔ _
  rw [View.set_slice_whole, Rect.mem_set_unit]
  exact Iff.rfl

/-- Every index of the result is in the one point's block, which is written back. -/
theorem cover3 (i : S256x4.Idx) :
    ∃ t : Fin cfg3.N, (cfg3.win 3).flush t = true ∧ i ∈ ((cfg3.win 3).blk t).view.set := by
  refine ⟨t3_0, flush3_3 t3_0, ?_⟩
  rw [mem_blk3]
  obtain ⟨-, -, -, -, -, -, e0, e1⟩ := block_index_zero t3_0
  have h0 : (i 0).val < 256 := (i 0).isLt
  have h1 : (i 1).val < 4 := (i 1).isLt
  intro a
  match a with
  | ⟨0, _⟩ => show win3_3.index t3_0 (0 : Fin 2) * 256 ≤ (i 0).val ∧ (i 0).val < win3_3.index t3_0 (0 : Fin 2) * 256 + 256; omega
  | ⟨1, _⟩ => show win3_3.index t3_0 (1 : Fin 2) * 4 ≤ (i 1).val ∧ (i 1).val < win3_3.index t3_0 (1 : Fin 2) * 4 + 4; omega

/-- THE RESULT ARRAY after the region: the head of the pooled rows, the weights and the bias row as the region finds
    them. -/
theorem arr3 (c : Dev nD) :
    (dat3 (F := Ideal) V c).arrAt 3 cfg3.N
      = Cert.GcnHead.head (V c main_v88) (V c main_arg7) (fun q => V c main_v89 (ValueIdx.ix2 (n0 := 1) (n1 := 4) 0 q)) :=
  (dat3 (F := Ideal) V c).arrAt_eq_of_cover 3 _ (fun t _ => flushed3_eq V c t) cover3

end Cert.KernelIdeal.RegionVal

end
-- ==== Proof.RefHead.lean ====
/-
  The reference's own classifier head, read as the same function of its pooled rows.

  After the pooled rows P (the mean of each graph's node features) the reference computes the scores by a
  `dot_general` with the weights and adds the bias, carried through two broadcasts; the outlined log-softmax then
  takes each row's maximum by a reduction started from −∞, joins −∞ onto it once more, shifts the row by it,
  exponentiates, sums the row from 0, takes the logarithm and subtracts it from the shifted row. Entry (p, q) is
  therefore

      (L(p, q) − M(p)) − log ∑ⱼ exp (L(p, j) − M(p)),     L(p, q) = ∑ₖ P(p, k) · w(k, q) + b(q),

  with M(p) = max (−∞) (the fold of `max` over row p from −∞). A fold of `max` is never below its starting value,
  so the extra join changes nothing (`Cert.GcnHead.max_rowMax`), and the row sum started from 0 is the row sum: this
  is `Cert.GcnHead.head` of P, the weights and the bias. Nothing is re-associated; `exp` and `log` stay closed; the
  pooled rows are never looked into.
-/
import proofs.«136682_j41867341201638_1_alg».proof.Proof.RefReadP
import proofs.«136682_j41867341201638_1_alg».proof.Proof.HeadSpec

noncomputable section

namespace Cert.ReferenceIdeal.RefHead

open Cert.ReferenceIdeal Cert.ReferenceIdeal.Gen Cert.ReferenceIdeal.ReadP
open Idealize.ShloMosaic Idealize.ShloMosaic.TcCoe Idealize.SL.Sem Idealize.ShloMosaic.StableHlo
open Idealize.ShloMosaic.ValueIdx
open scoped BigOperators

variable (x0 : (⟨S200000x16, .f32⟩ : BufTy).Contents (Elt Ideal)) (x1 : (⟨S16x16, .f32⟩ : BufTy).Contents (Elt Ideal))
  (x2 : (⟨S16, .f32⟩ : BufTy).Contents (Elt Ideal)) (x3 : (⟨S16x16, .f32⟩ : BufTy).Contents (Elt Ideal))
  (x4 : (⟨S16, .f32⟩ : BufTy).Contents (Elt Ideal)) (x5 : (⟨S16x16, .f32⟩ : BufTy).Contents (Elt Ideal))
  (x6 : (⟨S16, .f32⟩ : BufTy).Contents (Elt Ideal)) (x7 : (⟨S16x4, .f32⟩ : BufTy).Contents (Elt Ideal))
  (x8 : (⟨S4, .f32⟩ : BufTy).Contents (Elt Ideal)) (x9 : (⟨S2x3200000, .i32⟩ : BufTy).Contents (Elt Ideal))
  (x10 : (⟨S200000, .i32⟩ : BufTy).Contents (Elt Ideal))

/-- The reference's scores — its product with the weights plus the bias through two broadcasts — at (p, q) are the
    specification's scores of the pooled rows. -/
theorem scores_apply (p : Fin 256) (q : Fin 4) :
    val_main_v98 (F := Ideal) x0 x1 x2 x3 x4 x5 x6 x7 x8 x9 x10 (ix2 p q)
      = Cert.GcnHead.score (val_main_v94 (F := Ideal) x0 x1 x2 x3 x4 x5 x6 x9 x10) x7 (fun j => x8 (ix1 j)) p q := by
  rw [val_main_v98_apply, val_main_v95_apply, val_main_v97_apply, val_main_v96_apply]
  generalize val_main_v94 (F := Ideal) x0 x1 x2 x3 x4 x5 x6 x9 x10 = P
  unfold Cert.GcnHead.score
  have el : ∀ k : Fin 16, lidx_main_v95 (ix2 p q) k = ix2 p k :=
    fun k => funext fun a => Fin.ext (by match a with | ⟨0, _⟩ => rfl | ⟨1, _⟩ => rfl)
  have er : ∀ k : Fin 16, ridx_main_v95 (ix2 p q) k = ix2 k q :=
    fun k => funext fun a => Fin.ext (by match a with | ⟨0, _⟩ => rfl | ⟨1, _⟩ => rfl)
  have eb : idx_main_v96 (idx_main_v97 (ix2 p q)) = ix1 q :=
    funext fun a => Fin.ext (by match a with | ⟨0, _⟩ => rfl)
  simp only [el, er, eb]
  rfl

/-- The reference's row maximum — −∞ joined once more onto the maximum reduced from −∞ — at row p is the fold of
    `max` over that row of its scores. -/
theorem rowMax_apply (p : Fin 256) :
    val_main_call3_v2 (F := Ideal) x0 x1 x2 x3 x4 x5 x6 x7 x8 x9 x10 (ix1 p)
      = Cert.GcnHead.rowMax (fun j => val_main_v98 (F := Ideal) x0 x1 x2 x3 x4 x5 x6 x7 x8 x9 x10 (ix2 p j)) := by
  rw [val_main_call3_v2_apply, val_main_call3_v1_apply, val_main_call3_cst_0_apply]
  unfold val_main_call3_v0
  generalize val_main_v98 (F := Ideal) x0 x1 x2 x3 x4 x5 x6 x7 x8 x9 x10 = Z
  have hR : S256x4.Reduces [1] S256 := by decide
  have hz : (Z ∘ hR.lift (ix1 p)) = fun j : Fin 4 => Z (ix2 p j) :=
    funext fun k => congrArg Z (funext fun a => Fin.ext (by match a with | ⟨0, _⟩ => rfl | ⟨1, _⟩ => rfl))
  have hfold : Host.reduce (FloatOps.maximumf (F := Ideal) (φ := .f32)) Z (val_main_call3_cst (F := Ideal)) reducesTo_S256x4_S256_d1 h_S_ (ix1 p)
      = Cert.GcnHead.rowMax (fun j : Fin 4 => Z (ix2 p j)) := by
    refine (Host.reduce_eq_fold_single (FloatOps.maximumf (F := Ideal) (φ := .f32)) Z _ reducesTo_S256x4_S256_d1 hR h_S_ (ix1 p)).trans ?_
    rw [hz]
    rfl
  exact (congrArg (fun m => max Cert.GcnHead.floor m) hfold).trans (Cert.GcnHead.max_rowMax (fun j : Fin 4 => Z (ix2 p j)))

/-- The reference's shifted scores at (p, j): the score less the row maximum. -/
theorem shifted_apply (p : Fin 256) (j : Fin 4) :
    val_main_call3_v5 (F := Ideal) x0 x1 x2 x3 x4 x5 x6 x7 x8 x9 x10 (ix2 p j)
      = val_main_v98 (F := Ideal) x0 x1 x2 x3 x4 x5 x6 x7 x8 x9 x10 (ix2 p j)
        - Cert.GcnHead.rowMax (fun k => val_main_v98 (F := Ideal) x0 x1 x2 x3 x4 x5 x6 x7 x8 x9 x10 (ix2 p k)) := by
  rw [val_main_call3_v5_apply, val_main_call3_v4_apply, val_main_call3_v3_apply]
  have e : idx_main_call3_v3 (idx_main_call3_v4 (ix2 p j)) = ix1 p :=
    funext fun a => Fin.ext (by match a with | ⟨0, _⟩ => rfl)
  rw [e, rowMax_apply]
  rfl

/-- The reference's repeated logarithm at (p, q): the logarithm of the sum over row p of the exponentials of its
    shifted scores, the sum started from the zero word. -/
theorem logRowSum_apply (p : Fin 256) (q : Fin 4) :
    val_main_call3_v10 (F := Ideal) x0 x1 x2 x3 x4 x5 x6 x7 x8 x9 x10 (ix2 p q)
      = Ideal.log (∑ j : Fin 4, Ideal.exp (val_main_call3_v5 (F := Ideal) x0 x1 x2 x3 x4 x5 x6 x7 x8 x9 x10 (ix2 p j))) := by
  rw [val_main_call3_v10_apply, val_main_call3_v9_apply, val_main_call3_v8_apply, val_main_call3_v7_apply,
    val_main_call3_cst_1_apply]
  have e : ∀ k : Fin 4, idx_main_call3_v7 (idx_main_call3_v8 (idx_main_call3_v10 (ix2 p q))) k = ix2 p k :=
    fun k => funext fun a => Fin.ext (by match a with | ⟨0, _⟩ => rfl | ⟨1, _⟩ => rfl)
  simp only [e, val_main_call3_v6_apply, Ideal.ofBits_def, Ideal.ofBits_zero_f32, zero_add, Ideal.hostUnary_log_def,
    Ideal.hostUnary_exp_def]

/-- The reference's last stage at (p, q) is the log-softmax of row p of its scores at column q. -/
theorem logSoftmax_apply (p : Fin 256) (q : Fin 4) :
    val_main_v99 (F := Ideal) x0 x1 x2 x3 x4 x5 x6 x7 x8 x9 x10 (ix2 p q)
      = Cert.GcnHead.logSoftmaxRow (fun j => val_main_v98 (F := Ideal) x0 x1 x2 x3 x4 x5 x6 x7 x8 x9 x10 (ix2 p j)) q := by
  rw [val_main_v99_apply, logRowSum_apply, shifted_apply]
  simp only [shifted_apply]
  generalize val_main_v98 (F := Ideal) x0 x1 x2 x3 x4 x5 x6 x7 x8 x9 x10 = Z
  rfl

/-- THE REFERENCE'S RESULT is the head of its pooled rows, the weights and the bias. -/
theorem head_eq :
    val_main_v99 (F := Ideal) x0 x1 x2 x3 x4 x5 x6 x7 x8 x9 x10
      = Cert.GcnHead.head (val_main_v94 (F := Ideal) x0 x1 x2 x3 x4 x5 x6 x9 x10) x7 (fun q => x8 (ix1 q)) := by
  funext i
  obtain ⟨p, q, rfl⟩ : ∃ (p : Fin 256) (q : Fin 4), i = ix2 p q := ⟨i 0, i 1, eq_ix2 i⟩
  rw [logSoftmax_apply, Cert.GcnHead.head_ix2]
  exact congrArg (fun L => Cert.GcnHead.logSoftmaxRow L q) (funext fun j => scores_apply x0 x1 x2 x3 x4 x5 x6 x7 x8 x9 x10 p j)

end Cert.ReferenceIdeal.RefHead

end
-- ==== Proof.Chain3.lean ====
/-
  From the third region's exit to the result.

  Region 2 writes only its output array, the third transform h₃. The host operations that follow aggregate h₃ along
  the edges, add the bias b₃ to every row, add the rows of each graph together and divide by the number of nodes of
  the graph (at least one): the pooled means, a 256×16 array; and give the head's bias a leading unit axis. They are
  the reference's operations on the same values. Region 3 is one grid point on whole arrays: pooled · W_lin + b_lin,
  then the logarithm of the softmax along each row, which is the reference's last stage of its pooled means.
-/
import proofs.«136682_j41867341201638_1_alg».proof.Proof.Chain2
import proofs.«136682_j41867341201638_1_alg».proof.Proof.Region3
import proofs.«136682_j41867341201638_1_alg».proof.Proof.RefHead

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo Idealize.ShloMosaic.ValueIdx
open Cert.ReferenceIdeal.ReadP Cert.ReferenceIdeal.RefDense

variable (m : (ℓ : Loc nD τ sig) → Buf (Elt Ideal) ℓ) (ρ : Dev nD → PrngReg)

/-! ## What crosses region 2 and the stretch after it unchanged -/

/-- A buffer that is none of region 2's arrays and that the following stretch does not write holds at region 3's
    entry what it held at region 2's entry. -/
theorem carry9 (c : Dev nD) (b : Ref sig .tc) (hne : ∀ w, Pipeline.arrRef spec2 w ≠ b)
    (hops : ∀ W : Valuation τ sig (Elt Ideal), StableHlo.after hostOps3 W (Proc.devRef .tc b) = W (Proc.devRef .tc b)) :
    W9 (F := Ideal) m ρ c (Proc.devRef .tc b) = W7 m ρ c (Proc.devRef .tc b) :=
  (hops _).trans (W8_of_ne m ρ c b hne)

theorem src_W8 (c : Dev nD) : W8 (F := Ideal) m ρ c (Proc.devRef .tc main_v3) = val_main_v3 (F := Ideal) (a9 m c) :=
  (W8_of_ne m ρ c main_v3 (by decide)).trans (src_W7 m ρ c)
theorem dst_W8 (c : Dev nD) : W8 (F := Ideal) m ρ c (Proc.devRef .tc main_v6) = val_main_v6 (F := Ideal) (a9 m c) :=
  (W8_of_ne m ρ c main_v6 (by decide)).trans (dst_W7 m ρ c)
theorem norm_W8 (c : Dev nD) : W8 (F := Ideal) m ρ c (Proc.devRef .tc main_v29) = val_main_v29 (F := Ideal) (a9 m c) :=
  (W8_of_ne m ρ c main_v29 (by decide)).trans (norm_W7 m ρ c)
theorem arg6_W8 (c : Dev nD) : W8 (F := Ideal) m ρ c (Proc.devRef .tc main_arg6) = a6 m c :=
  (W8_of_ne m ρ c main_arg6 (by decide)).trans (arg6_W7 m ρ c)
theorem arg8_W8 (c : Dev nD) : W8 (F := Ideal) m ρ c (Proc.devRef .tc main_arg8) = a8 m c :=
  (W8_of_ne m ρ c main_arg8 (by decide)).trans (arg8_W7 m ρ c)
theorem arg10_W8 (c : Dev nD) : W8 (F := Ideal) m ρ c (Proc.devRef .tc main_arg10) = a10 m c :=
  (W8_of_ne m ρ c main_arg10 (by decide)).trans (arg10_W7 m ρ c)
theorem arg7_W9 (c : Dev nD) : W9 (F := Ideal) m ρ c (Proc.devRef .tc main_arg7) = a7 m c :=
  (carry9 m ρ c main_arg7 (by decide) (fun W => by after_results_simp)).trans (arg7_W7 m ρ c)

/-! ## The pooled means, the head's bias, and the result -/

/-- The mean, over each graph's nodes, of the third aggregation plus b₃. -/
theorem pooled_W9 (c : Dev nD) :
    W9 (F := Ideal) m ρ c (Proc.devRef .tc main_v88) = val_main_v94 (F := Ideal) (a0 m c) (a1 m c) (a2 m c) (a3 m c) (a4 m c) (a5 m c) (a6 m c) (a9 m c) (a10 m c) := by
  show StableHlo.after hostOps3 (W8 m ρ c) (Proc.devRef .tc main_v88) = _
  after_results_simp
  rw [transform3_W8, src_W8, dst_W8, norm_W8, arg6_W8, arg10_W8]
  rfl

/-- The head's bias with a leading unit axis, read in its one row at column q. -/
theorem headBias_W9 (c : Dev nD) :
    (fun q : Fin 4 => W9 (F := Ideal) m ρ c (Proc.devRef .tc main_v89) (ix2 (n0 := 1) (n1 := 4) 0 q))
      = fun q => a8 m c (ix1 q) := by
  have h : W9 (F := Ideal) m ρ c (Proc.devRef .tc main_v89)
      = fun j => shapeCast S1x4 (a8 m c) shapeCasts_S4_S1x4 j := by
    show StableHlo.after hostOps3 (W8 m ρ c) (Proc.devRef .tc main_v89) = _
    after_results_simp
    rw [arg8_W8]
    rfl
  rw [h]
  funext q
  exact shapeCast_a_1a_apply (a8 m c) _ 0 q

/-- THE RESULT: region 3 leaves in the result array the reference's last stage of the same eleven arguments. -/
theorem result_W10 (c : Dev nD) :
    W10 (F := Ideal) m ρ c (Proc.devRef .tc main_v90) = val_main_v99 (F := Ideal) (a0 m c) (a1 m c) (a2 m c) (a3 m c) (a4 m c) (a5 m c) (a6 m c) (a7 m c) (a8 m c) (a9 m c) (a10 m c) := by
  refine (W10_arr m ρ c 3).trans ?_
  rw [Cert.KernelIdeal.RegionVal.arr3 (V9 m ρ) c]
  show Cert.GcnHead.head (W9 m ρ c (Proc.devRef .tc main_v88)) (W9 m ρ c (Proc.devRef .tc main_arg7))
    (fun q => W9 m ρ c (Proc.devRef .tc main_v89) (ix2 (n0 := 1) (n1 := 4) 0 q)) = _
  rw [pooled_W9, arg7_W9, headBias_W9]
  exact (Cert.ReferenceIdeal.RefHead.head_eq _ _ _ _ _ _ _ _ _ _ _).symm

end Cert.KernelIdeal.Chain

end
-- ==== Proof.lean ====
/-
  A three-layer graph convolution network with mean pooling and a log-softmax head: the kernel against its reference,
  on the extended reals.

  Both programs compute, from the node features x, the weights and biases of three layers, the head's weights and
  bias, the edge list and the graph number of every node:
    the edge vectors (source, target, normalisation dinv(src)·dinv(dst)) from the edge list alone;
    h₁ = x·W₁;  a₁ = aggregate h₁ along the edges;  h₂ = relu (a₁ + b₁)·W₂;  a₂ = aggregate h₂;
    h₃ = relu (a₂ + b₂)·W₃;  a₃ = aggregate h₃;  the mean of a₃ + b₃ over each graph's nodes;
    and log softmax of pooled·W_lin + b_lin along each row.
  The kernel computes the three dense transforms 8000 rows at a time and the head in one block, on the matrix unit
  into a zero accumulator, where the reference has whole-array products; on exact values a change of float format is
  the identity, an entry of a product depends only on its own row of the left factor, and the two programs group the
  head's subtractions the same way, so each dense stage is the same function of the same arrays
  (Region0 … Region3, RefDense, RefHead). Everything between the dense stages — gathers, scatter-adds, the integer
  wrap of negative node numbers, the pooling — is the same sequence of host operations in both programs and is
  carried as the reference's stage functions, never opened (Chain0 … Chain3). No algebraic law that fails at an
  infinity is used, so the precondition (finite inputs) is never opened.

  The frames of the two kernel programs are the generated frame certificates; the reference's frame is its run with
  the result dropped; the idealization rewrote nothing, so its preservation claim is `True`.
-/
import proofs.«136682_j41867341201638_1_alg».proof.Defs
import proofs.«136682_j41867341201638_1_alg».proof.Proof.Gen.Kernel
import proofs.«136682_j41867341201638_1_alg».proof.Proof.Gen.Kernel.Frame
import proofs.«136682_j41867341201638_1_alg».proof.Proof.Gen.KernelIdeal
import proofs.«136682_j41867341201638_1_alg».proof.Proof.Gen.KernelIdeal.Frame
import proofs.«136682_j41867341201638_1_alg».proof.Proof.Gen.ReferenceIdeal
import proofs.«136682_j41867341201638_1_alg».proof.Proof.Gen.Pre_finite_inputs
import proofs.«136682_j41867341201638_1_alg».proof.Proof.KRun
import proofs.«136682_j41867341201638_1_alg».proof.Proof.RefRunP
import proofs.«136682_j41867341201638_1_alg».proof.Proof.RefReadP
import proofs.«136682_j41867341201638_1_alg».proof.Proof.Chain3
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference terminates with its arguments unchanged: its run, the result forgotten. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the eleven arguments both programs end with the same result array: the
    reference's last stage of those arguments. -/
theorem algebraic : Cert.algebraic_KernelIdeal_ReferenceIdeal := by
  intro m ρ m' ρ' _ hagree
  refine ⟨fun c => Cert.ReferenceIdeal.ReadP.val_main_v99 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Chain.result_W10 m ρ c), (h c).2⟩)
      (Cert.KernelIdeal.KRun.run (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v99_eq m' c, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
